-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x387 : Shape := ⟨2, ![100000, 387]⟩
abbrev S2x600000 : Shape := ⟨2, ![2, 600000]⟩
abbrev S600000x7 : Shape := ⟨2, ![600000, 7]⟩
abbrev S7x387 : Shape := ⟨2, ![7, 387]⟩
abbrev S387 : Shape := ⟨1, ![387]⟩
abbrev S387x128 : Shape := ⟨2, ![387, 128]⟩
abbrev S128 : Shape := ⟨1, ![128]⟩
abbrev S128x128 : Shape := ⟨2, ![128, 128]⟩
abbrev S7x128 : Shape := ⟨2, ![7, 128]⟩
abbrev S263x128 : Shape := ⟨2, ![263, 128]⟩
abbrev S128x2 : Shape := ⟨2, ![128, 2]⟩
abbrev S2 : Shape := ⟨1, ![2]⟩
abbrev S_ : Shape := ⟨0, ![]⟩

class Facts : Prop where
  bcast_S_S100000x387 : S_.BroadcastsInDim S100000x387 (![] : Fin 0 → Fin S100000x387.rank)
  reducesTo_S100000x387_S_d0_1 : S100000x387.ReducesTo [0, 1] S_
  h_S_ : 0 < S_.numel
  bcast_S_S600000x7 : S_.BroadcastsInDim S600000x7 (![] : Fin 0 → Fin S600000x7.rank)
  reducesTo_S600000x7_S_d0_1 : S600000x7.ReducesTo [0, 1] S_
  bcast_S_S7x387 : S_.BroadcastsInDim S7x387 (![] : Fin 0 → Fin S7x387.rank)
  reducesTo_S7x387_S_d0_1 : S7x387.ReducesTo [0, 1] S_
  bcast_S_S387 : S_.BroadcastsInDim S387 (![] : Fin 0 → Fin S387.rank)
  reducesTo_S387_S_d0 : S387.ReducesTo [0] S_
  bcast_S_S387x128 : S_.BroadcastsInDim S387x128 (![] : Fin 0 → Fin S387x128.rank)
  reducesTo_S387x128_S_d0_1 : S387x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S7x128 : S_.BroadcastsInDim S7x128 (![] : Fin 0 → Fin S7x128.rank)
  reducesTo_S7x128_S_d0_1 : S7x128.ReducesTo [0, 1] S_
  bcast_S_S263x128 : S_.BroadcastsInDim S263x128 (![] : Fin 0 → Fin S263x128.rank)
  reducesTo_S263x128_S_d0_1 : S263x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_v83 : IVec S_ 1) (main_v84 : FVec F S2 .f32) (main_cst_32 : FVec F S_ .f32) : IVec S_ 1 :=
  let main_v85 : FVec F S2 .f32 := broadcastInDim S2 ![] bcast_S_S2 main_cst_32
  let main_v86 : IVec S2 1 := cmpf .olt main_v84 main_v85
  let main_c_33 : IVec S_ 1 := constantI S_ 1 1#1
  let main_v87 : IVec S_ 1 := (fun x v => Host.reduce IntOp.andi x v reducesTo_S2_S_d0 h_S_) main_v86 main_c_33
  let main_v88 : IVec S_ 1 := andi main_v83 main_v87
  main_v88

def fn_part4 {F : FTy → Type} [FloatOps F] (main_arg15 : FVec F S263x128 .f32) (main_arg16 : FVec F S128 .f32) (main_arg17 : FVec F S128x2 .f32) (main_arg18 : FVec F S2 .f32) (main_v63 : IVec S_ 1) (main_v67 : IVec S_ 1) : IVec S_ 1 :=
  let main_v68 : IVec S_ 1 := andi main_v63 main_v67
  let main_v69 : FVec F S263x128 .f32 := Host.absf main_arg15
  let main_cst_26 : FVec F S_ .f32 := constant S_ .f32 0x7F800000#32
  let main_v70 : FVec F S263x128 .f32 := broadcastInDim S263x128 ![] bcast_S_S263x128 main_cst_26
  let main_v71 : IVec S263x128 1 := cmpf .olt main_v69 main_v70
  let main_c_27 : IVec S_ 1 := constantI S_ 1 1#1
  let main_v72 : IVec S_ 1 := (fun x v => Host.reduce IntOp.andi x v reducesTo_S263x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x2 .f32 := Host.absf main_arg17
  let main_cst_30 : FVec F S_ .f32 := constant S_ .f32 0x7F800000#32
  let main_v80 : FVec F S128x2 .f32 := broadcastInDim S128x2 ![] bcast_S_S128x2 main_cst_30
  let main_v81 : IVec S128x2 1 := cmpf .olt main_v79 main_v80
  let main_c_31 : IVec S_ 1 := constantI S_ 1 1#1
  let main_v82 : IVec S_ 1 := (fun x v => Host.reduce IntOp.andi x v reducesTo_S128x2_S_d0_1 h_S_) main_v81 main_c_31
  let main_v83 : IVec S_ 1 := andi main_v78 main_v82
  let main_v84 : FVec F S2 .f32 := Host.absf main_arg18
  let main_cst_32 : FVec F S_ .f32 := constant S_ .f32 0x7F800000#32
  fn_part5 (F := F) main_v83 main_v84 main_cst_32

def fn_part3 {F : FTy → Type} [FloatOps F] (main_arg12 : FVec F S128 .f32) (main_arg13 : FVec F S128x128 .f32) (main_arg14 : FVec F S128 .f32) (main_arg15 : FVec F S263x128 .f32) (main_arg16 : FVec F S128 .f32) (main_arg17 : FVec F S128x2 .f32) (main_arg18 : FVec F S2 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_v63 main_v67

def fn_part2 {F : FTy → Type} [FloatOps F] (main_arg8 : FVec F S128 .f32) (main_arg9 : FVec F S7x128 .f32) (main_arg10 : FVec F S128 .f32) (main_arg11 : FVec F S128x128 .f32) (main_arg12 : FVec F S128 .f32) (main_arg13 : FVec F S128x128 .f32) (main_arg14 : FVec F S128 .f32) (main_arg15 : FVec F S263x128 .f32) (main_arg16 : FVec F S128 .f32) (main_arg17 : FVec F S128x2 .f32) (main_arg18 : FVec F S2 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S7x128 .f32 := Host.absf main_arg9
  let main_cst_14 : FVec F S_ .f32 := constant S_ .f32 0x7F800000#32
  let main_v40 : FVec F S7x128 .f32 := broadcastInDim S7x128 ![] bcast_S_S7x128 main_cst_14
  let main_v41 : IVec S7x128 1 := cmpf .olt main_v39 main_v40
  let main_c_15 : IVec S_ 1 := constantI S_ 1 1#1
  let main_v42 : IVec S_ 1 := (fun x v => Host.reduce IntOp.andi x v reducesTo_S7x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_v48 main_v49 main_v50

def fn_part1 {F : FTy → Type} [FloatOps F] (main_arg5 : FVec F S387x128 .f32) (main_arg6 : FVec F S128 .f32) (main_arg7 : FVec F S128x128 .f32) (main_arg8 : FVec F S128 .f32) (main_arg9 : FVec F S7x128 .f32) (main_arg10 : FVec F S128 .f32) (main_arg11 : FVec F S128x128 .f32) (main_arg12 : FVec F S128 .f32) (main_arg13 : FVec F S128x128 .f32) (main_arg14 : FVec F S128 .f32) (main_arg15 : FVec F S263x128 .f32) (main_arg16 : FVec F S128 .f32) (main_arg17 : FVec F S128x2 .f32) (main_arg18 : FVec F S2 .f32) (main_v13 : IVec S_ 1) (main_v16 : IVec S387 1) : IVec S_ 1 :=
  let main_c_5 : IVec S_ 1 := constantI S_ 1 1#1
  let main_v17 : IVec S_ 1 := (fun x v => Host.reduce IntOp.andi x v reducesTo_S387_S_d0 h_S_) main_v16 main_c_5
  let main_v18 : IVec S_ 1 := andi main_v13 main_v17
  let main_v19 : FVec F S387x128 .f32 := Host.absf main_arg5
  let main_cst_6 : FVec F S_ .f32 := constant S_ .f32 0x7F800000#32
  let main_v20 : FVec F S387x128 .f32 := broadcastInDim S387x128 ![] bcast_S_S387x128 main_cst_6
  let main_v21 : IVec S387x128 1 := cmpf .olt main_v19 main_v20
  let main_c_7 : IVec S_ 1 := constantI S_ 1 1#1
  let main_v22 : IVec S_ 1 := (fun x v => Host.reduce IntOp.andi x v reducesTo_S387x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S100000x387 .f32) (main_arg1 : IVec S2x600000 32) (main_arg2 : FVec F S600000x7 .f32) (main_arg3 : FVec F S7x387 .f32) (main_arg4 : FVec F S387 .f32) (main_arg5 : FVec F S387x128 .f32) (main_arg6 : FVec F S128 .f32) (main_arg7 : FVec F S128x128 .f32) (main_arg8 : FVec F S128 .f32) (main_arg9 : FVec F S7x128 .f32) (main_arg10 : FVec F S128 .f32) (main_arg11 : FVec F S128x128 .f32) (main_arg12 : FVec F S128 .f32) (main_arg13 : FVec F S128x128 .f32) (main_arg14 : FVec F S128 .f32) (main_arg15 : FVec F S263x128 .f32) (main_arg16 : FVec F S128 .f32) (main_arg17 : FVec F S128x2 .f32) (main_arg18 : FVec F S2 .f32) : IVec S_ 1 :=
  let main_v0 : FVec F S100000x387 .f32 := Host.absf main_arg0
  let main_cst : FVec F S_ .f32 := constant S_ .f32 0x7F800000#32
  let main_v1 : FVec F S100000x387 .f32 := broadcastInDim S100000x387 ![] bcast_S_S100000x387 main_cst
  let main_v2 : IVec S100000x387 1 := cmpf .olt main_v0 main_v1
  let main_c : IVec S_ 1 := constantI S_ 1 1#1
  let main_v3 : IVec S_ 1 := (fun x v => Host.reduce IntOp.andi x v reducesTo_S100000x387_S_d0_1 h_S_) main_v2 main_c
  let main_v4 : FVec F S600000x7 .f32 := Host.absf main_arg2
  let main_cst_0 : FVec F S_ .f32 := constant S_ .f32 0x7F800000#32
  let main_v5 : FVec F S600000x7 .f32 := broadcastInDim S600000x7 ![] bcast_S_S600000x7 main_cst_0
  let main_v6 : IVec S600000x7 1 := cmpf .olt main_v4 main_v5
  let main_c_1 : IVec S_ 1 := constantI S_ 1 1#1
  let main_v7 : IVec S_ 1 := (fun x v => Host.reduce IntOp.andi x v reducesTo_S600000x7_S_d0_1 h_S_) main_v6 main_c_1
  let main_v8 : IVec S_ 1 := andi main_v3 main_v7
  let main_v9 : FVec F S7x387 .f32 := Host.absf main_arg3
  let main_cst_2 : FVec F S_ .f32 := constant S_ .f32 0x7F800000#32
  let main_v10 : FVec F S7x387 .f32 := broadcastInDim S7x387 ![] bcast_S_S7x387 main_cst_2
  let main_v11 : IVec S7x387 1 := cmpf .olt main_v9 main_v10
  let main_c_3 : IVec S_ 1 := constantI S_ 1 1#1
  let main_v12 : IVec S_ 1 := (fun x v => Host.reduce IntOp.andi x v reducesTo_S7x387_S_d0_1 h_S_) main_v11 main_c_3
  let main_v13 : IVec S_ 1 := andi main_v8 main_v12
  let main_v14 : FVec F S387 .f32 := Host.absf main_arg4
  let main_cst_4 : FVec F S_ .f32 := constant S_ .f32 0x7F800000#32
  let main_v15 : FVec F S387 .f32 := broadcastInDim S387 ![] bcast_S_S387 main_cst_4
  let main_v16 : IVec S387 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S100000x387 : Shape := ⟨2, ![100000, 387]⟩
abbrev S2x600000 : Shape := ⟨2, ![2, 600000]⟩
abbrev S600000x7 : Shape := ⟨2, ![600000, 7]⟩
abbrev S7x387 : Shape := ⟨2, ![7, 387]⟩
abbrev S387 : Shape := ⟨1, ![387]⟩
abbrev S387x128 : Shape := ⟨2, ![387, 128]⟩
abbrev S128 : Shape := ⟨1, ![128]⟩
abbrev S128x128 : Shape := ⟨2, ![128, 128]⟩
abbrev S7x128 : Shape := ⟨2, ![7, 128]⟩
abbrev S263x128 : Shape := ⟨2, ![263, 128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S1x387 : Shape := ⟨2, ![1, 387]⟩
abbrev S600000x387 : Shape := ⟨2, ![600000, 387]⟩
abbrev S3000x7 : Shape := ⟨2, ![3000, 7]⟩
abbrev S3000x387 : Shape := ⟨2, ![3000, 387]⟩
abbrev S_ : Shape := ⟨0, ![]⟩
abbrev S600000x1 : Shape := ⟨2, ![600000, 1]⟩
abbrev S1x128 : Shape := ⟨2, ![1, 128]⟩
abbrev S100000x128 : Shape := ⟨2, ![100000, 128]⟩
abbrev S2000x387 : Shape := ⟨2, ![2000, 387]⟩
abbrev S2000x128 : Shape := ⟨2, ![2000, 128]⟩
abbrev S600000x128 : Shape := ⟨2, ![600000, 128]⟩
abbrev S3000x128 : Shape := ⟨2, ![3000, 128]⟩
abbrev S1x2 : Shape := ⟨2, ![1, 2]⟩
abbrev S600000x2 : Shape := ⟨2, ![600000, 2]⟩
abbrev S3000x2 : Shape := ⟨2, ![3000, 2]⟩

abbrev nBuf : Space → Nat
  | .hbm => 93
  | .vmem => 46
  | .smem => 0
  | _ => 0

abbrev bufTy : (tb : Table) → Fin (tcTables nBuf tb) → BufTy
  | .hbm, ⟨0, _⟩ => ⟨S100000x387, .f32⟩
  | .hbm, ⟨1, _⟩ => ⟨S2x600000, .i32⟩
  | .hbm, ⟨2, _⟩ => ⟨S600000x7, .f32⟩
  | .hbm, ⟨3, _⟩ => ⟨S7x387, .f32⟩
  | .hbm, ⟨4, _⟩ => ⟨S387, .f32⟩
  | .hbm, ⟨5, _⟩ => ⟨S387x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S7x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S263x128, .f32⟩
  | .hbm, ⟨16, _⟩ => ⟨S128, .f32⟩
  | .hbm, ⟨17, _⟩ => ⟨S128x2, .f32⟩
  | .hbm, ⟨18, _⟩ => ⟨S2, .f32⟩
  | .hbm, ⟨19, _⟩ => ⟨S1x600000, .i32⟩
  | .hbm, ⟨20, _⟩ => ⟨S600000, .i32⟩
  | .hbm, ⟨21, _⟩ => ⟨S1x600000, .i32⟩
  | .hbm, ⟨22, _⟩ => ⟨S600000, .i32⟩
  | .hbm, ⟨23, _⟩ => ⟨S600000x7, .bf16⟩
  | .hbm, ⟨24, _⟩ => ⟨S1x387, .f32⟩
  | .hbm, ⟨25, _⟩ => ⟨S600000x387, .f32⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x387, .f32⟩
  | .hbm, ⟨35, _⟩ => ⟨S600000x387, .f32⟩
  | .hbm, ⟨36, _⟩ => ⟨S_, .f32⟩
  | .hbm, ⟨37, _⟩ => ⟨S600000x387, .f32⟩
  | .hbm, ⟨38, _⟩ => ⟨S600000x387, .f32⟩
  | .hbm, ⟨39, _⟩ => ⟨S_, .f32⟩
  | .hbm, ⟨40, _⟩ => ⟨S100000x387, .f32⟩
  | .hbm, ⟨41, _⟩ => ⟨S600000x1, .i32⟩
  | .hbm, ⟨42, _⟩ => ⟨S100000x387, .f32⟩
  | .hbm, ⟨43, _⟩ => ⟨S1x128, .f32⟩
  | .hbm, ⟨44, _⟩ => ⟨S1x128, .f32⟩
  | .hbm, ⟨45, _⟩ => ⟨S100000x128, .f32⟩
  | .hbm, ⟨46, _⟩ => ⟨S1x128, .f32⟩
  | .hbm, ⟨47, _⟩ => ⟨S600000x128, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x128, .f32⟩
  | .hbm, ⟨57, _⟩ => ⟨S600000x128, .f32⟩
  | .hbm, ⟨58, _⟩ => ⟨S_, .f32⟩
  | .hbm, ⟨59, _⟩ => ⟨S600000x128, .f32⟩
  | .hbm, ⟨60, _⟩ => ⟨S600000x128, .f32⟩
  | .hbm, ⟨61, _⟩ => ⟨S_, .f32⟩
  | .hbm, ⟨62, _⟩ => ⟨S100000x128, .f32⟩
  | .hbm, ⟨63, _⟩ => ⟨S600000x1, .i32⟩
  | .hbm, ⟨64, _⟩ => ⟨S100000x128, .f32⟩
  | .hbm, ⟨65, _⟩ => ⟨S1x128, .f32⟩
  | .hbm, ⟨66, _⟩ => ⟨S1x128, .f32⟩
  | .hbm, ⟨67, _⟩ => ⟨S100000x128, .f32⟩
  | .hbm, ⟨68, _⟩ => ⟨S100000x128, .bf16⟩
  | .hbm, ⟨69, _⟩ => ⟨S_, .i32⟩
  | .hbm, ⟨70, _⟩ => ⟨S600000, .i32⟩
  | .hbm, ⟨71, _⟩ => ⟨S600000, .i1⟩
  | .hbm, ⟨72, _⟩ => ⟨S_, .i32⟩
  | .hbm, ⟨73, _⟩ => ⟨S600000, .i32⟩
  | .hbm, ⟨74, _⟩ => ⟨S600000, .i32⟩
  | .hbm, ⟨75, _⟩ => ⟨S600000, .i32⟩
  | .hbm, ⟨76, _⟩ => ⟨S600000x1, .i32⟩
  | .hbm, ⟨77, _⟩ => ⟨S600000x128, .bf16⟩
  | .hbm, ⟨78, _⟩ => ⟨S_, .i32⟩
  | .hbm, ⟨79, _⟩ => ⟨S600000, .i32⟩
  | .hbm, ⟨80, _⟩ => ⟨S600000, .i1⟩
  | .hbm, ⟨81, _⟩ => ⟨S_, .i32⟩
  | .hbm, ⟨82, _⟩ => ⟨S600000, .i32⟩
  | .hbm, ⟨83, _⟩ => ⟨S600000, .i32⟩
  | .hbm, ⟨84, _⟩ => ⟨S600000, .i32⟩
  | .hbm, ⟨85, _⟩ => ⟨S600000x1, .i32⟩
  | .hbm, ⟨86, _⟩ => ⟨S600000x128, .bf16⟩
  | .hbm, ⟨87, _⟩ => ⟨S128x128, .f32⟩
  | .hbm, ⟨88, _⟩ => ⟨S128x128, .f32⟩
  | .hbm, ⟨89, _⟩ => ⟨S7x128, .f32⟩
  | .hbm, ⟨90, _⟩ => ⟨S1x128, .f32⟩
  | .hbm, ⟨91, _⟩ => ⟨S1x2, .f32⟩
  | .hbm, ⟨92, _⟩ => ⟨S600000x2, .f32⟩
  | .local _ .vmem, ⟨0, _⟩ => ⟨S3000x7, .bf16⟩
  | .local _ .vmem, ⟨1, _⟩ => ⟨S3000x7, .bf16⟩
  | .local _ .vmem, ⟨2, _⟩ => ⟨S7x387, .f32⟩
  | .local _ .vmem, ⟨3, _⟩ => ⟨S1x387, .f32⟩
  | .local _ .vmem, ⟨4, _⟩ => ⟨S3000x387, .f32⟩
  | .local _ .vmem, ⟨5, _⟩ => ⟨S3000x387, .f32⟩
  | .local _ .vmem, ⟨6, _⟩ => ⟨S2000x387, .f32⟩
  | .local _ .vmem, ⟨7, _⟩ => ⟨S2000x387, .f32⟩
  | .local _ .vmem, ⟨8, _⟩ => ⟨S2000x387, .f32⟩
  | .local _ .vmem, ⟨9, _⟩ => ⟨S2000x387, .f32⟩
  | .local _ .vmem, ⟨10, _⟩ => ⟨S387x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S3000x7, .bf16⟩
  | .local _ .vmem, ⟨17, _⟩ => ⟨S3000x7, .bf16⟩
  | .local _ .vmem, ⟨18, _⟩ => ⟨S7x128, .f32⟩
  | .local _ .vmem, ⟨19, _⟩ => ⟨S1x128, .f32⟩
  | .local _ .vmem, ⟨20, _⟩ => ⟨S3000x128, .f32⟩
  | .local _ .vmem, ⟨21, _⟩ => ⟨S3000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S3000x128, .bf16⟩
  | .local _ .vmem, ⟨33, _⟩ => ⟨S3000x128, .bf16⟩
  | .local _ .vmem, ⟨34, _⟩ => ⟨S3000x128, .bf16⟩
  | .local _ .vmem, ⟨35, _⟩ => ⟨S3000x128, .bf16⟩
  | .local _ .vmem, ⟨36, _⟩ => ⟨S3000x7, .bf16⟩
  | .local _ .vmem, ⟨37, _⟩ => ⟨S3000x7, .bf16⟩
  | .local _ .vmem, ⟨38, _⟩ => ⟨S128x128, .f32⟩
  | .local _ .vmem, ⟨39, _⟩ => ⟨S128x128, .f32⟩
  | .local _ .vmem, ⟨40, _⟩ => ⟨S7x128, .f32⟩
  | .local _ .vmem, ⟨41, _⟩ => ⟨S1x128, .f32⟩
  | .local _ .vmem, ⟨42, _⟩ => ⟨S128x2, .f32⟩
  | .local _ .vmem, ⟨43, _⟩ => ⟨S1x2, .f32⟩
  | .local _ .vmem, ⟨44, _⟩ => ⟨S3000x2, .f32⟩
  | .local _ .vmem, ⟨45, _⟩ => ⟨S3000x2, .f32⟩
  | _, _ => ⟨S100000x387, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c : Ref sig .tc := ⟨.hbm, 26, rfl⟩
abbrev main_v7 : Ref sig .tc := ⟨.hbm, 27, rfl⟩
abbrev main_v8 : Ref sig .tc := ⟨.hbm, 28, rfl⟩
abbrev main_c_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_call0_cst : Ref sig .tc := ⟨.hbm, 36, rfl⟩
abbrev main_call0_v0 : Ref sig .tc := ⟨.hbm, 37, rfl⟩
abbrev main_v15 : Ref sig .tc := ⟨.hbm, 38, rfl⟩
abbrev main_cst : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_1 : Ref sig .tc := ⟨.hbm, 48, rfl⟩
abbrev main_v24 : Ref sig .tc := ⟨.hbm, 49, rfl⟩
abbrev main_v25 : Ref sig .tc := ⟨.hbm, 50, rfl⟩
abbrev main_c_2 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_call1_cst : Ref sig .tc := ⟨.hbm, 58, rfl⟩
abbrev main_call1_v0 : Ref sig .tc := ⟨.hbm, 59, rfl⟩
abbrev main_v32 : Ref sig .tc := ⟨.hbm, 60, rfl⟩
abbrev main_cst_3 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_4 : Ref sig .tc := ⟨.hbm, 69, rfl⟩
abbrev main_v40 : Ref sig .tc := ⟨.hbm, 70, rfl⟩
abbrev main_v41 : Ref sig .tc := ⟨.hbm, 71, rfl⟩
abbrev main_c_5 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_6 : Ref sig .tc := ⟨.hbm, 78, rfl⟩
abbrev main_v47 : Ref sig .tc := ⟨.hbm, 79, rfl⟩
abbrev main_v48 : Ref sig .tc := ⟨.hbm, 80, rfl⟩
abbrev main_c_7 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg6_0 : Ref sig .tc := ⟨.vmem, 41, rfl⟩
abbrev cc4_stg7_0 : Ref sig .tc := ⟨.vmem, 42, rfl⟩
abbrev cc4_stg8_0 : Ref sig .tc := ⟨.vmem, 43, rfl⟩
abbrev cc4_stg9_0 : Ref sig .tc := ⟨.vmem, 44, rfl⟩
abbrev cc4_stg9_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem4_0 : DmaSem sig := 39
abbrev cc4_sem5_0 : DmaSem sig := 40
abbrev cc4_sem6_0 : DmaSem sig := 41
abbrev cc4_sem7_0 : DmaSem sig := 42
abbrev cc4_sem8_0 : DmaSem sig := 43
abbrev cc4_sem9_0 : DmaSem sig := 44
abbrev cc4_sem9_1 : DmaSem sig := 45

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x7 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x387 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x387 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3000x387 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x387 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x387 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S387x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x7 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S7x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S3000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S3000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S3000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S3000x7 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S7x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x2 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x2 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S3000x2 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bitsLt_bf16_f32 : FTy.bits .bf16 < FTy.bits .f32
  shapeCasts_S387_S1x387 : S387.ShapeCasts S1x387
  inb_S3000x7_S3000x7_0_0 : ∀ a, (![0, 0] : Fin 2 → Nat) a + S3000x7.size a ≤ S3000x7.size a
  h_S3000x7 : 0 < S3000x7.numel
  shapeCasts_S3000x7_S3000x7 : S3000x7.ShapeCasts S3000x7
  inb_S7x387_S7x387_0_0 : ∀ a, (![0, 0] : Fin 2 → Nat) a + S7x387.size a ≤ S7x387.size a
  h_S7x387 : 0 < S7x387.numel
  inb_S1x387_S1x387_0_0 : ∀ a, (![0, 0] : Fin 2 → Nat) a + S1x387.size a ≤ S1x387.size a
  h_S1x387 : 0 < S1x387.numel
  shapeCasts_S1x387_S1x387 : S1x387.ShapeCasts S1x387
  broadcasts_S1x387_S3000x387 : S1x387.Broadcasts S3000x387
  inb_S3000x387_S3000x387_0_0 : ∀ a, (![0, 0] : Fin 2 → Nat) a + S3000x387.size a ≤ S3000x387.size a
  h_S3000x387 : 0 < S3000x387.numel
  bcast_S_S600000 : S_.BroadcastsInDim S600000 (![] : Fin 0 → Fin S600000.rank)
  bcast_S600000_S600000x1_0 : S600000.BroadcastsInDim S600000x1 (![0] : Fin 1 → Fin S600000x1.rank)
  bcast_S_S600000x387 : S_.BroadcastsInDim S600000x387 (![] : Fin 0 → Fin S600000x387.rank)
  bcast_S_S100000x387 : S_.BroadcastsInDim S100000x387 (![] : Fin 0 → Fin S100000x387.rank)
  shapeCasts_S128_S1x128 : S128.ShapeCasts S1x128
  inb_S2000x387_S2000x387_0_0 : ∀ a, (![0, 0] : Fin 2 → Nat) a + S2000x387.size a ≤ S2000x387.size a
  h_S2000x387 : 0 < S2000x387.numel
  shapeCasts_S2000x387_S2000x387 : S2000x387.ShapeCasts S2000x387
  inb_S387x128_S387x128_0_0 : ∀ a, (![0, 0] : Fin 2 → Nat) a + S387x128.size a ≤ S387x128.size a
  h_S387x128 : 0 < S387x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  inb_S7x128_S7x128_0_0 : ∀ a, (![0, 0] : Fin 2 → Nat) a + S7x128.size a ≤ S7x128.size a
  h_S7x128 : 0 < S7x128.numel
  broadcasts_S1x128_S3000x128 : S1x128.Broadcasts S3000x128
  inb_S3000x128_S3000x128_0_0 : ∀ a, (![0, 0] : Fin 2 → Nat) a + S3000x128.size a ≤ S3000x128.size a
  h_S3000x128 : 0 < S3000x128.numel
  bcast_S_S600000x128 : S_.BroadcastsInDim S600000x128 (![] : Fin 0 → Fin S600000x128.rank)
  bcast_S_S100000x128 : S_.BroadcastsInDim S100000x128 (![] : Fin 0 → Fin S100000x128.rank)
  shapeCasts_S2000x128_S2000x128 : S2000x128.ShapeCasts S2000x128
  slices_S263x128_S128x128_0_0 : S263x128.Slices ![0, 0] S128x128
  slices_S263x128_S128x128_128_0 : S263x128.Slices ![128, 0] S128x128
  slices_S263x128_S7x128_256_0 : S263x128.Slices ![256, 0] S7x128
  shapeCasts_S2_S1x2 : S2.ShapeCasts S1x2
  shapeCasts_S3000x128_S3000x128 : S3000x128.ShapeCasts S3000x128
  shapeCasts_S128x128_S128x128 : S128x128.ShapeCasts S128x128
  shapeCasts_S7x128_S7x128 : S7x128.ShapeCasts S7x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S3000x2 : S1x2.Broadcasts S3000x2
  inb_S3000x2_S3000x2_0_0 : ∀ a, (![0, 0] : Fin 2 → Nat) a + S3000x2.size a ≤ S3000x2.size a
  h_S3000x2 : 0 < S3000x2.numel
  dot_S3000x7_S7x387_S3000x387_1_0_0_1_n_n_wf : DotDims.WF S3000x7 S7x387 S3000x387 [1] [0] [0] [1] [] []
  gather_S100000x387_S600000x1_S600000x387_1_0_n_n_0_1_1387_wf : GatherDims.WF S100000x387 S600000x1 S600000x387 [1] [0] [] [0] [] 1 ![1, 387]
  scatter_S100000x387_S600000x1_S600000x387_1_0_0_1_wf : ScatterDims.WF S100000x387 S600000x1 S600000x387 [1] [0] [0] 1
  dot_S2000x387_S387x128_S2000x128_1_0_0_1_n_n_wf : DotDims.WF S2000x387 S387x128 S2000x128 [1] [0] [0] [1] [] []
  dot_S2000x128_S128x128_S2000x128_1_0_0_1_n_n_wf : DotDims.WF S2000x128 S128x128 S2000x128 [1] [0] [0] [1] [] []
  dot_S3000x7_S7x128_S3000x128_1_0_0_1_n_n_wf : DotDims.WF S3000x7 S7x128 S3000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S3000x128_S128x128_S3000x128_1_0_0_1_n_n_wf : DotDims.WF S3000x128 S128x128 S3000x128 [1] [0] [0] [1] [] []
  dot_S3000x128_S128x2_S3000x2_1_0_0_1_n_n_wf : DotDims.WF S3000x128 S128x2 S3000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x7.size a ≤ S600000x7.size a
  hwx0_0 : ∀ i : grid0.Coords, EltTy.bits .bf16 = 32 ∨ (Rect.block (s := S600000x7) S3000x7.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x387.size a ≤ S7x387.size a
  hwx0_1 : ∀ i : grid0.Coords, EltTy.bits .f32 = 32 ∨ (Rect.block (s := S7x387) S7x387.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x387.size a ≤ S1x387.size a
  hwx0_2 : ∀ i : grid0.Coords, EltTy.bits .f32 = 32 ∨ (Rect.block (s := S1x387) S1x387.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3000x387.size a ≤ S600000x387.size a
  hwx0_3 : ∀ i : grid0.Coords, EltTy.bits .f32 = 32 ∨ (Rect.block (s := S600000x387) S3000x387.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x387.size a ≤ S100000x387.size a
  hwx1_0 : ∀ i : grid1.Coords, EltTy.bits .f32 = 32 ∨ (Rect.block (s := S100000x387) S2000x387.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x387.size a ≤ S100000x387.size a
  hwx1_1 : ∀ i : grid1.Coords, EltTy.bits .f32 = 32 ∨ (Rect.block (s := S100000x387) S2000x387.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S387x128.size a ≤ S387x128.size a
  hwx1_2 : ∀ i : grid1.Coords, EltTy.bits .f32 = 32 ∨ (Rect.block (s := S387x128) S387x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x7.size a ≤ S600000x7.size a
  hwx2_0 : ∀ i : grid2.Coords, EltTy.bits .bf16 = 32 ∨ (Rect.block (s := S600000x7) S3000x7.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S7x128.size a ≤ S7x128.size a
  hwx2_1 : ∀ i : grid2.Coords, EltTy.bits .f32 = 32 ∨ (Rect.block (s := S7x128) S7x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3000x128.size a ≤ S600000x128.size a
  hwx2_3 : ∀ i : grid2.Coords, EltTy.bits .f32 = 32 ∨ (Rect.block (s := S600000x128) S3000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S100000x128.size a
  hwx3_6 : ∀ i : grid3.Coords, EltTy.bits .f32 = 32 ∨ (Rect.block (s := S100000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S3000x128.size a ≤ S600000x128.size a
  hwx4_0 : ∀ i : grid4.Coords, EltTy.bits .bf16 = 32 ∨ (Rect.block (s := S600000x128) S3000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S3000x128.size a ≤ S600000x128.size a
  hwx4_1 : ∀ i : grid4.Coords, EltTy.bits .bf16 = 32 ∨ (Rect.block (s := S600000x128) S3000x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S3000x7.size a ≤ S600000x7.size a
  hwx4_2 : ∀ i : grid4.Coords, EltTy.bits .bf16 = 32 ∨ (Rect.block (s := S600000x7) S3000x7.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S7x128.size a ≤ S7x128.size a
  hwx4_5 : ∀ i : grid4.Coords, EltTy.bits .f32 = 32 ∨ (Rect.block (s := S7x128) S7x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x2.size a ≤ S128x2.size a
  hwx4_7 : ∀ i : grid4.Coords, EltTy.bits .f32 = 32 ∨ (Rect.block (s := S128x2) S128x2.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x2.size a ≤ S1x2.size a
  hwx4_8 : ∀ i : grid4.Coords, EltTy.bits .f32 = 32 ∨ (Rect.block (s := S1x2) S1x2.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S3000x2.size a ≤ S600000x2.size a
  hwx4_9 : ∀ i : grid4.Coords, EltTy.bits .f32 = 32 ∨ (Rect.block (s := S600000x2) S3000x2.size (cc4_transform_9 i) (hinb4_9 i)).WholeWords (EltTy.packing .f32)

variable [Facts₀]

def dot_S3000x7_S7x387_S3000x387_1_0_0_1_n_n : DotDims S3000x7 S7x387 S3000x387 where
  lhsContracting := [1]
  rhsContracting := [0]
  lhsNonContracting := [0]
  rhsNonContracting := [1]
  lhsBatch := []
  rhsBatch := []
  wf := dot_S3000x7_S7x387_S3000x387_1_0_0_1_n_n_wf
def gather_S100000x387_S600000x1_S600000x387_1_0_n_n_0_1_1387 : GatherDims S100000x387 S600000x1 S600000x387 where
  offsetDims := [1]
  collapsedSliceDims := [0]
  operandBatchingDims := []
  startIndicesBatchingDims := []
  startIndexMap := [0]
  indexVectorDim := 1
  sliceSizes := ![1, 387]
  wf := gather_S100000x387_S600000x1_S600000x387_1_0_n_n_0_1_1387_wf
def scatter_S100000x387_S600000x1_S600000x387_1_0_0_1 : ScatterDims S100000x387 S600000x1 S600000x387 where
  updateWindowDims := [1]
  insertedWindowDims := [0]
  scatterDimsToOperandDims := [0]
  indexVectorDim := 1
  wf := scatter_S100000x387_S600000x1_S600000x387_1_0_0_1_wf
def dot_S2000x387_S387x128_S2000x128_1_0_0_1_n_n : DotDims S2000x387 S387x128 S2000x128 where
  lhsContracting := [1]
  rhsContracting := [0]
  lhsNonContracting := [0]
  rhsNonContracting := [1]
  lhsBatch := []
  rhsBatch := []
  wf := dot_S2000x387_S387x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S3000x7_S7x128_S3000x128_1_0_0_1_n_n : DotDims S3000x7 S7x128 S3000x128 where
  lhsContracting := [1]
  rhsContracting := [0]
  lhsNonContracting := [0]
  rhsNonContracting := [1]
  lhsBatch := []
  rhsBatch := []
  wf := dot_S3000x7_S7x128_S3000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S3000x128_S128x128_S3000x128_1_0_0_1_n_n : DotDims S3000x128 S128x128 S3000x128 where
  lhsContracting := [1]
  rhsContracting := [0]
  lhsNonContracting := [0]
  rhsNonContracting := [1]
  lhsBatch := []
  rhsBatch := []
  wf := dot_S3000x128_S128x128_S3000x128_1_0_0_1_n_n_wf
def dot_S3000x128_S128x2_S3000x2_1_0_0_1_n_n : DotDims S3000x128 S128x2 S3000x2 where
  lhsContracting := [1]
  rhsContracting := [0]
  lhsNonContracting := [0]
  rhsNonContracting := [1]
  lhsBatch := []
  rhsBatch := []
  wf := dot_S3000x128_S128x2_S3000x2_1_0_0_1_n_n_wf

abbrev win0_0 : Pipeline.Window sig grid0 :=
  Pipeline.Window.ofSpec (Memref.whole main_v4) S3000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S7x387.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x387.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S3000x387.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x387.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2000x387.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S387x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v4) S3000x7.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S7x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S3000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v21) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v36) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v37) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v38) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v46) S3000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S3000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v4) S3000x7.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v54) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v55) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v56) S7x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v57) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg17) S128x2.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v58) S1x2.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v59) S3000x2.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

class Facts : Prop extends Facts₀ where

variable [Facts]
-- ==== ReferenceIdeal.lean ====
abbrev S100000x387 : Shape := ⟨2, ![100000, 387]⟩
abbrev S2x600000 : Shape := ⟨2, ![2, 600000]⟩
abbrev S600000x7 : Shape := ⟨2, ![600000, 7]⟩
abbrev S7x387 : Shape := ⟨2, ![7, 387]⟩
abbrev S387 : Shape := ⟨1, ![387]⟩
abbrev S387x128 : Shape := ⟨2, ![387, 128]⟩
abbrev S128 : Shape := ⟨1, ![128]⟩
abbrev S128x128 : Shape := ⟨2, ![128, 128]⟩
abbrev S7x128 : Shape := ⟨2, ![7, 128]⟩
abbrev S263x128 : Shape := ⟨2, ![263, 128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x387 : Shape := ⟨2, ![600000, 387]⟩
abbrev S1x387 : Shape := ⟨2, ![1, 387]⟩
abbrev S100000x128 : Shape := ⟨2, ![100000, 128]⟩
abbrev S1x128 : Shape := ⟨2, ![1, 128]⟩
abbrev S600000x128 : Shape := ⟨2, ![600000, 128]⟩
abbrev S600000x263 : Shape := ⟨2, ![600000, 263]⟩
abbrev S600000x2 : Shape := ⟨2, ![600000, 2]⟩
abbrev S1x2 : Shape := ⟨2, ![1, 2]⟩

abbrev nBuf : Space → Nat
  | .hbm => 131
  | .vmem => 0
  | .smem => 0
  | _ => 0

abbrev hbmTy0_0 (i : Nat) : BufTy := match i % 128 with
  | 0 => ⟨S100000x387, .f32⟩
  | 1 => ⟨S2x600000, .i32⟩
  | 2 => ⟨S600000x7, .f32⟩
  | 3 => ⟨S7x387, .f32⟩
  | 4 => ⟨S387, .f32⟩
  | 5 => ⟨S387x128, .f32⟩
  | 6 => ⟨S128, .f32⟩
  | 7 => ⟨S128x128, .f32⟩
  | 8 => ⟨S128, .f32⟩
  | 9 => ⟨S7x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S263x128, .f32⟩
  | 16 => ⟨S128, .f32⟩
  | 17 => ⟨S128x2, .f32⟩
  | 18 => ⟨S2, .f32⟩
  | 19 => ⟨S1x600000, .i32⟩
  | 20 => ⟨S600000, .i32⟩
  | 21 => ⟨S1x600000, .i32⟩
  | 22 => ⟨S600000, .i32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x387, .f32⟩
  | 32 => ⟨S600000x387, .f32⟩
  | 33 => ⟨S600000x387, .f32⟩
  | 34 => ⟨S1x387, .f32⟩
  | 35 => ⟨S600000x387, .f32⟩
  | 36 => ⟨S600000x387, .f32⟩
  | 37 => ⟨S_, .f32⟩
  | 38 => ⟨S600000x387, .f32⟩
  | 39 => ⟨S600000x387, .f32⟩
  | 40 => ⟨S_, .f32⟩
  | 41 => ⟨S100000x387, .f32⟩
  | 42 => ⟨S600000x1, .i32⟩
  | 43 => ⟨S100000x387, .f32⟩
  | 44 => ⟨S_, .f32⟩
  | 45 => ⟨S100000x387, .f32⟩
  | 46 => ⟨S100000x387, .f32⟩
  | 47 => ⟨S100000x387, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S600000x128, .f32⟩
  | 71 => ⟨S600000x128, .f32⟩
  | 72 => ⟨S600000x128, .f32⟩
  | 73 => ⟨S1x128, .f32⟩
  | 74 => ⟨S600000x128, .f32⟩
  | 75 => ⟨S600000x128, .f32⟩
  | 76 => ⟨S_, .f32⟩
  | 77 => ⟨S600000x128, .f32⟩
  | 78 => ⟨S600000x128, .f32⟩
  | 79 => ⟨S_, .f32⟩
  | 80 => ⟨S100000x128, .f32⟩
  | 81 => ⟨S600000x1, .i32⟩
  | 82 => ⟨S100000x128, .f32⟩
  | 83 => ⟨S_, .f32⟩
  | 84 => ⟨S100000x128, .f32⟩
  | 85 => ⟨S100000x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S_, .i32⟩
  | 102 => ⟨S600000, .i32⟩
  | 103 => ⟨S600000, .i1⟩
  | 104 => ⟨S_, .i32⟩
  | 105 => ⟨S600000, .i32⟩
  | 106 => ⟨S600000, .i32⟩
  | 107 => ⟨S600000, .i32⟩
  | 108 => ⟨S600000x1, .i32⟩
  | 109 => ⟨S600000x128, .f32⟩
  | 110 => ⟨S_, .i32⟩
  | 111 => ⟨S600000, .i32⟩
  | 112 => ⟨S600000, .i1⟩
  | 113 => ⟨S_, .i32⟩
  | 114 => ⟨S600000, .i32⟩
  | 115 => ⟨S600000, .i32⟩
  | 116 => ⟨S600000, .i32⟩
  | 117 => ⟨S600000x1, .i32⟩
  | 118 => ⟨S600000x128, .f32⟩
  | 119 => ⟨S600000x263, .f32⟩
  | 120 => ⟨S600000x128, .f32⟩
  | 121 => ⟨S1x128, .f32⟩
  | 122 => ⟨S600000x128, .f32⟩
  | 123 => ⟨S600000x128, .f32⟩
  | 124 => ⟨S_, .f32⟩
  | 125 => ⟨S600000x128, .f32⟩
  | 126 => ⟨S600000x128, .f32⟩
  | 127 => ⟨S600000x2, .f32⟩
  | _ => ⟨S100000x387, .f32⟩

abbrev hbmTy0_1 (i : Nat) : BufTy := match i % 128 with
  | 0 => ⟨S1x2, .f32⟩
  | 1 => ⟨S600000x2, .f32⟩
  | 2 => ⟨S600000x2, .f32⟩
  | _ => ⟨S100000x387, .f32⟩

abbrev hbmTy (i : Nat) : BufTy := match i / 128 with
  | 0 => hbmTy0_0 i
  | 1 => hbmTy0_1 i
  | _ => ⟨S100000x387, .f32⟩

abbrev bufTy : (tb : Table) → Fin (tcTables nBuf tb) → BufTy
  | .hbm, ⟨i, _⟩ => hbmTy i
  | _, _ => ⟨S100000x387, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_call0_cst : Ref sig .tc := ⟨.hbm, 37, rfl⟩
abbrev main_call0_v0 : Ref sig .tc := ⟨.hbm, 38, rfl⟩
abbrev main_v16 : Ref sig .tc := ⟨.hbm, 39, rfl⟩
abbrev main_cst : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_1 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_call1_cst : Ref sig .tc := ⟨.hbm, 52, rfl⟩
abbrev main_call1_v0 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_call2_cst : Ref sig .tc := ⟨.hbm, 59, rfl⟩
abbrev main_call2_v0 : Ref sig .tc := ⟨.hbm, 60, rfl⟩
abbrev main_v32 : Ref sig .tc := ⟨.hbm, 61, rfl⟩
abbrev main_c_2 : Ref sig .tc := ⟨.hbm, 62, rfl⟩
abbrev main_v33 : Ref sig .tc := ⟨.hbm, 63, rfl⟩
abbrev main_v34 : Ref sig .tc := ⟨.hbm, 64, rfl⟩
abbrev main_c_3 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_call3_cst : Ref sig .tc := ⟨.hbm, 76, rfl⟩
abbrev main_call3_v0 : Ref sig .tc := ⟨.hbm, 77, rfl⟩
abbrev main_v45 : Ref sig .tc := ⟨.hbm, 78, rfl⟩
abbrev main_cst_4 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_5 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_call4_cst : Ref sig .tc := ⟨.hbm, 91, rfl⟩
abbrev main_call4_v0 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_call5_cst : Ref sig .tc := ⟨.hbm, 98, rfl⟩
abbrev main_call5_v0 : Ref sig .tc := ⟨.hbm, 99, rfl⟩
abbrev main_v61 : Ref sig .tc := ⟨.hbm, 100, rfl⟩
abbrev main_c_6 : Ref sig .tc := ⟨.hbm, 101, rfl⟩
abbrev main_v62 : Ref sig .tc := ⟨.hbm, 102, rfl⟩
abbrev main_v63 : Ref sig .tc := ⟨.hbm, 103, rfl⟩
abbrev main_c_7 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_c_8 : Ref sig .tc := ⟨.hbm, 110, rfl⟩
abbrev main_v69 : Ref sig .tc := ⟨.hbm, 111, rfl⟩
abbrev main_v70 : Ref sig .tc := ⟨.hbm, 112, rfl⟩
abbrev main_c_9 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_call6_cst : Ref sig .tc := ⟨.hbm, 124, rfl⟩
abbrev main_call6_v0 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S387_S1x387_1 : S387.BroadcastsInDim S1x387 (![1] : Fin 1 → Fin S1x387.rank)
  bcast_S1x387_S600000x387_0_1 : S1x387.BroadcastsInDim S600000x387 (![0, 1] : Fin 2 → Fin S600000x387.rank)
  bcast_S_S600000x387 : S_.BroadcastsInDim S600000x387 (![] : Fin 0 → Fin S600000x387.rank)
  bcast_S_S100000x387 : S_.BroadcastsInDim S100000x387 (![] : Fin 0 → Fin S100000x387.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  concatenates_S600000x128_S600000x128_S600000x7_S600000x263_d1 : Shape.Concatenates [S600000x128, S600000x128, S600000x7] S600000x263 1
  bcast_S2_S1x2_1 : S2.BroadcastsInDim S1x2 (![1] : Fin 1 → Fin S1x2.rank)
  bcast_S1x2_S600000x2_0_1 : S1x2.BroadcastsInDim S600000x2 (![0, 1] : Fin 2 → Fin S600000x2.rank)
  gather_S100000x387_S600000x1_S600000x387_1_0_n_n_0_1_1387_wf : GatherDims.WF S100000x387 S600000x1 S600000x387 [1] [0] [] [0] [] 1 ![1, 387]
  dot_S600000x7_S7x387_S600000x387_1_0_0_1_n_n_wf : DotDims.WF S600000x7 S7x387 S600000x387 [1] [0] [0] [1] [] []
  scatter_S100000x387_S600000x1_S600000x387_1_0_0_1_wf : ScatterDims.WF S100000x387 S600000x1 S600000x387 [1] [0] [0] 1
  dot_S100000x387_S387x128_S100000x128_1_0_0_1_n_n_wf : DotDims.WF S100000x387 S387x128 S100000x128 [1] [0] [0] [1] [] []
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  dot_S600000x7_S7x128_S600000x128_1_0_0_1_n_n_wf : DotDims.WF S600000x7 S7x128 S600000x128 [1] [0] [0] [1] [] []
  scatter_S100000x128_S600000x1_S600000x128_1_0_0_1_wf : ScatterDims.WF S100000x128 S600000x1 S600000x128 [1] [0] [0] 1
  dot_S600000x263_S263x128_S600000x128_1_0_0_1_n_n_wf : DotDims.WF S600000x263 S263x128 S600000x128 [1] [0] [0] [1] [] []
  dot_S600000x128_S128x2_S600000x2_1_0_0_1_n_n_wf : DotDims.WF S600000x128 S128x2 S600000x2 [1] [0] [0] [1] [] []

variable [Facts₀]

def gather_S100000x387_S600000x1_S600000x387_1_0_n_n_0_1_1387 : GatherDims S100000x387 S600000x1 S600000x387 where
  offsetDims := [1]
  collapsedSliceDims := [0]
  operandBatchingDims := []
  startIndicesBatchingDims := []
  startIndexMap := [0]
  indexVectorDim := 1
  sliceSizes := ![1, 387]
  wf := gather_S100000x387_S600000x1_S600000x387_1_0_n_n_0_1_1387_wf
def dot_S600000x7_S7x387_S600000x387_1_0_0_1_n_n : DotDims S600000x7 S7x387 S600000x387 where
  lhsContracting := [1]
  rhsContracting := [0]
  lhsNonContracting := [0]
  rhsNonContracting := [1]
  lhsBatch := []
  rhsBatch := []
  wf := dot_S600000x7_S7x387_S600000x387_1_0_0_1_n_n_wf
def scatter_S100000x387_S600000x1_S600000x387_1_0_0_1 : ScatterDims S100000x387 S600000x1 S600000x387 where
  updateWindowDims := [1]
  insertedWindowDims := [0]
  scatterDimsToOperandDims := [0]
  indexVectorDim := 1
  wf := scatter_S100000x387_S600000x1_S600000x387_1_0_0_1_wf
def dot_S100000x387_S387x128_S100000x128_1_0_0_1_n_n : DotDims S100000x387 S387x128 S100000x128 where
  lhsContracting := [1]
  rhsContracting := [0]
  lhsNonContracting := [0]
  rhsNonContracting := [1]
  lhsBatch := []
  rhsBatch := []
  wf := dot_S100000x387_S387x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x7_S7x128_S600000x128_1_0_0_1_n_n : DotDims S600000x7 S7x128 S600000x128 where
  lhsContracting := [1]
  rhsContracting := [0]
  lhsNonContracting := [0]
  rhsNonContracting := [1]
  lhsBatch := []
  rhsBatch := []
  wf := dot_S600000x7_S7x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S600000x263_S263x128_S600000x128_1_0_0_1_n_n : DotDims S600000x263 S263x128 S600000x128 where
  lhsContracting := [1]
  rhsContracting := [0]
  lhsNonContracting := [0]
  rhsNonContracting := [1]
  lhsBatch := []
  rhsBatch := []
  wf := dot_S600000x263_S263x128_S600000x128_1_0_0_1_n_n_wf
def dot_S600000x128_S128x2_S600000x2_1_0_0_1_n_n : DotDims S600000x128 S128x2 S600000x2 where
  lhsContracting := [1]
  rhsContracting := [0]
  lhsNonContracting := [0]
  rhsNonContracting := [1]
  lhsBatch := []
  rhsBatch := []
  wf := dot_S600000x128_S128x2_S600000x2_1_0_0_1_n_n_wf

class Facts : Prop extends Facts₀ where

variable [Facts]
-- ==== Proof.KernelRun.lean ====
/-
  The idealized kernel's run, with its result named.

  The program is five kernel regions among stretches of host operations. Its run leaves every buffer that outlives the
  program at one valuation, the last of a chain of valuations: each stretch of host operations maps the contents it
  finds to the contents it leaves, and each region replaces the arrays of its windows by what its write-backs leave and
  keeps every other buffer. Here that run is stated with the result buffer kept beside the argument arrays: the result
  ends at the last valuation read at the result buffer, and every argument ends as launched.
-/
import proofs.«115617_j23519240913054_2_alg».proof.Proof.Gen.KernelIdeal.Frame

set_option maxRecDepth 16384

noncomputable section

namespace Cert.KernelIdeal.EndState

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    valuation of the chain, read at the result buffer, and each argument array ends as launched. -/
theorem run : θ_run defs (onTc (τ := τ) (main (F := F))) ⟨m, fun _ => 0, ρ⟩ (fun r => ∀ c : Dev nD,
      r.2.mem ((c.tc : Thread nD τ).loc main_v59) = W14 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v59 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c),
       (h c _ (mem_uc main_arg18 (by decide))).trans (W14_main_arg18 m ρ c)⟩)

end Cert.KernelIdeal.EndState

end
-- ==== Proof.Layers.lean ====
/-
  Matrices over the extended reals, entry by entry, and the four operations the layers of this network are made of:
  the product of two matrices (entry (r, c) is the sum over k of left (r, k) · right (k, c)), one row repeated down
  every row (a bias), the entrywise maximum with a fixed threshold (the rectifier, against zero), and the entrywise sum.

  A band of consecutive rows of a matrix is again a matrix. Every one of the four operations acts row by row: the band
  of rows of a product is the product of the band with the same right factor, the band of a repeated row is the same
  repeated row, and the band of an entrywise operation is the operation of the bands. So a layer computed band by band
  is the band of the layer computed on the whole matrix.
-/
import Idealize.ShloMosaic.PureOps.Ideal.Laws
import Idealize.ShloMosaic.Lib.ValueIdx

noncomputable section

namespace Cert.Layers

open Idealize.ShloMosaic Idealize.ShloMosaic.ValueIdx

/-- A matrix of extended reals with `M` rows and `N` columns. -/
abbrev Mat (M N : Nat) : Type := (⟨2, ![M, N]⟩ : Shape).Idx → EReal

variable {M K N R : Nat}

/-- The product: entry (r, c) is the sum over k of x (r, k) · w (k, c). -/
def prod (x : Mat M K) (w : Mat K N) : Mat M N := fun i => ∑ k : Fin K, x (ix2 (i 0) k) * w (ix2 k (i 1))

/-- One row repeated down every row. -/
def rowRep (b : Mat 1 N) : Mat M N := fun i => b (ix2 (0 : Fin 1) (i 1))

/-- The entrywise maximum with the threshold `z`. -/
def clip (z : EReal) (x : Mat M N) : Mat M N := fun i => max (x i) z

/-- The entrywise sum. -/
def plus (x y : Mat M N) : Mat M N := fun i => x i + y i

/-- Every entry scaled on the left by `s`. -/
def scale (s : EReal) (x : Mat M N) : Mat M N := fun i => s * x i

/-- The band of `R` rows starting at row `off`. -/
def band (off : Nat) (h : off + R ≤ M) (x : Mat M N) : Mat R N :=
  fun y => x (ix2 (⟨off + (y 0).val, by have := idx2_lt0 y; omega⟩ : Fin M) (y 1))

theorem band_prod (off : Nat) (h : off + R ≤ M) (x : Mat M K) (w : Mat K N) :
    band off h (prod x w) = prod (band off h x) w := rfl

theorem band_rowRep (off : Nat) (h : off + R ≤ M) (b : Mat 1 N) :
    band off h (rowRep (M := M) b) = rowRep b := rfl

theorem band_clip (off : Nat) (h : off + R ≤ M) (z : EReal) (x : Mat M N) :
    band off h (clip z x) = clip z (band off h x) := rfl

theorem band_plus (off : Nat) (h : off + R ≤ M) (x y : Mat M N) :
    band off h (plus x y) = plus (band off h x) (band off h y) := rfl

theorem band_scale (off : Nat) (h : off + R ≤ M) (s : EReal) (x : Mat M N) :
    band off h (scale s x) = scale s (band off h x) := rfl

/-- The edge projection: the product with the weights plus the bias row. -/
def affine (x : Mat M K) (w : Mat K N) (b : Mat 1 N) : Mat M N := plus (prod x w) (rowRep b)

theorem band_affine (off : Nat) (h : off + R ≤ M) (x : Mat M K) (w : Mat K N) (b : Mat 1 N) :
    band off h (affine x w b) = affine (band off h x) w b := rfl

end Cert.Layers

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.VectorForms.lean ====
/-
  How the operations the two programs are printed in read as the matrix operations of `Layers`, on the extended reals.

  A matrix product, spelt either as the host's contraction or as a vector product into the zero accumulator, is the
  product entry by entry. A vector of one row broadcast down the rows is the repeated row; so is a vector of `N` entries
  laid out as one row and then broadcast, in either of the two spellings (a reshape to one row, or a broadcast that
  names the column axis). The maximum with a splat scalar is the entrywise maximum with that scalar, the product with a
  splat scalar scales every entry, and changing the float format changes nothing.
-/
import proofs.«115617_j23519240913054_2_alg».proof.Proof.Layers
import proofs.«115617_j23519240913054_2_alg».proof.Proof.LibPlainDot
import Idealize.ShloMosaic.Lib.Pipeline.Value
import Idealize.ShloMosaic.Lib.ValueLayout

noncomputable section

namespace Cert.Layers

open Idealize.ShloMosaic Idealize.ShloMosaic.ValueIdx

variable {M K N : Nat}

/-- A vector of `N` entries laid out as a matrix of one row. -/
def asRow (b : (⟨1, ![N]⟩ : Shape).Idx → EReal) : Mat 1 N := fun y => b (ix1 (y 1))

/-- A vector product of a plain M×K by K×N contraction into the zero accumulator is the product. -/
theorem matmul_zero {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂) :
    matmul D prec l r (constant (F := Ideal) ⟨2, ![M, N]⟩ .f32 0x00000000#32) = prod l r :=
  funext fun j => PlainDot.matmul_zero_apply D hD prec l r j

/-- The host's plain M×K by K×N contraction is the product. -/
theorem hostDot {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂) :
    Host.dotGeneral D prec l r = prod l r :=
  funext fun j => PlainDot.hostDot_apply D hD prec l r j

/-- One row broadcast down `M` rows is the repeated row. -/
theorem broadcastTo_row (b : Mat 1 N) (h : (⟨2, ![1, N]⟩ : Shape).Broadcasts ⟨2, ![M, N]⟩) :
    broadcastTo ⟨2, ![M, N]⟩ b h = rowRep b := by
  funext j
  refine broadcastTo_apply b h j (ix2 (0 : Fin 1) (j 1)) fun a => ?_
  match a with
  | ⟨0, _⟩ => rfl
  | ⟨1, _⟩ =>
    show (j 1).val = if N = 1 then 0 else (j 1).val
    split
    · have := idx2_lt1 j; omega
    · rfl

/-- The same broadcast spelt with the axes named. -/
theorem broadcastInDim_row (b : Mat 1 N) (h : (⟨2, ![1, N]⟩ : Shape).BroadcastsInDim ⟨2, ![M, N]⟩ ![0, 1]) :
    broadcastInDim ⟨2, ![M, N]⟩ ![0, 1] h b = rowRep b := by
  funext j
  refine broadcastInDim_apply ![0, 1] h b j (ix2 (0 : Fin 1) (j 1)) fun a => ?_
  match a with
  | ⟨0, _⟩ => rfl
  | ⟨1, _⟩ =>
    show (j 1).val = if N = 1 then 0 else (j 1).val
    split
    · have := idx2_lt1 j; omega
    · rfl

/-- A vector of `N` entries reshaped to one row. -/
theorem shapeCast_asRow (b : (⟨1, ![N]⟩ : Shape).Idx → EReal) (h : (⟨1, ![N]⟩ : Shape).ShapeCasts ⟨2, ![1, N]⟩) :
    shapeCast ⟨2, ![1, N]⟩ b h = asRow b := by
  funext j
  refine (shapeCast_addUnit_apply ![N] b h j).trans (congrArg b ?_)
  funext a
  match a with
  | ⟨0, _⟩ => rfl

/-- A vector of `N` entries broadcast to one row along the column axis. -/
theorem broadcastInDim_asRow (b : (⟨1, ![N]⟩ : Shape).Idx → EReal)
    (h : (⟨1, ![N]⟩ : Shape).BroadcastsInDim ⟨2, ![1, N]⟩ ![1]) :
    broadcastInDim ⟨2, ![1, N]⟩ ![1] h b = asRow b := by
  funext j
  refine broadcastInDim_apply ![1] h b j (ix1 (j 1)) fun a => ?_
  match a with
  | ⟨0, _⟩ =>
    show (j 1).val = if N = 1 then 0 else (j 1).val
    split
    · have := idx2_lt1 j; omega
    · rfl

/-- The maximum with a splat scalar word. -/
theorem max_splat (w : BitVec 32) (x : FVec Ideal ⟨2, ![M, N]⟩ .f32) :
    maximumf x (broadcast ⟨2, ![M, N]⟩ (Scalar.ofBits (F := Ideal) .f32 w)) = clip (Ideal.ofBits .f32 w) x := rfl

/-- The maximum with a scalar constant broadcast over the matrix. -/
theorem max_const (w : BitVec 32) (x : FVec Ideal ⟨2, ![M, N]⟩ .f32)
    (h : (⟨0, ![]⟩ : Shape).BroadcastsInDim ⟨2, ![M, N]⟩ ![]) :
    maximumf x (broadcastInDim ⟨2, ![M, N]⟩ ![] h (constant (F := Ideal) ⟨0, ![]⟩ .f32 w)) = clip (Ideal.ofBits .f32 w) x := by
  funext j
  show max (x j) _ = max (x j) _
  refine congrArg (max (x j)) ?_
  exact broadcastInDim_apply ![] h _ j ix0 fun a => a.elim0

/-- The product with a splat scalar word on the left. -/
theorem mul_splat (w : BitVec 32) (x : FVec Ideal ⟨2, ![M, N]⟩ .f32) :
    mulf (broadcast ⟨2, ![M, N]⟩ (Scalar.ofBits (F := Ideal) .f32 w)) x = scale (Ideal.ofBits .f32 w) x := rfl

/-- The product with a scalar constant broadcast over the matrix, on the left. -/
theorem mul_const (w : BitVec 32) (x : FVec Ideal ⟨2, ![M, N]⟩ .f32)
    (h : (⟨0, ![]⟩ : Shape).BroadcastsInDim ⟨2, ![M, N]⟩ ![]) :
    mulf (broadcastInDim ⟨2, ![M, N]⟩ ![] h (constant (F := Ideal) ⟨0, ![]⟩ .f32 w)) x = scale (Ideal.ofBits .f32 w) x := by
  funext j
  show _ * x j = _ * x j
  refine congrArg (· * x j) ?_
  exact broadcastInDim_apply ![] h _ j ix0 fun a => a.elim0

/-- The entrywise sum of two vectors. -/
theorem addf_plus (x y : FVec Ideal ⟨2, ![M, N]⟩ .f32) : addf x y = plus x y := rfl

end Cert.Layers

end
-- ==== Proof.Stored.lean ====
/-
  What each kernel body stores, as layers.

  The edge projection stores the product of its block of edge attributes with the weights plus the bias row. The node
  update forms 1·x + aggregate on its block of rows, applies the first weight matrix and bias, rectifies, applies the
  second weight matrix and bias, and rectifies again. The edge network sums the three products of the source features,
  the destination features and the edge attributes with their three weight matrices, adds the bias, rectifies, and
  applies the output matrix and bias. Changing the float format of an operand changes nothing on the extended reals.
-/
import proofs.«115617_j23519240913054_2_alg».proof.Proof.Gen.KernelIdeal.Skeleton
import proofs.«115617_j23519240913054_2_alg».proof.Proof.VectorForms

noncomputable section

namespace Cert.KernelIdeal.Stored

open Idealize.ShloMosaic Idealize.ShloMosaic.ValueIdx Cert.KernelIdeal Cert.KernelIdeal.Gen Cert.Layers

/-- The rectifier's threshold: the zero word. -/
abbrev zeroW : EReal := Ideal.ofBits .f32 0x00000000#32
/-- The factor of the node's own features: the word of 1.0. -/
abbrev oneW : EReal := Ideal.ofBits .f32 0x3F800000#32

/-- The node update as layers, on any number of rows. -/
def nodeLayers {M D H O : Nat} (x a : Mat M D) (w1 : Mat D H) (b1 : Mat 1 H) (w2 : Mat H O) (b2 : Mat 1 O) : Mat M O :=
  clip zeroW (affine (clip zeroW (affine (plus (scale oneW x) a) w1 b1)) w2 b2)

/-- The edge network as layers, on any number of rows. -/
def edgeLayers {M D E H O : Nat} (s d : Mat M D) (e : Mat M E) (ws wd : Mat D H) (we : Mat E H) (b1 : Mat 1 H)
    (w2 : Mat H O) (b2 : Mat 1 O) : Mat M O :=
  affine (clip zeroW (plus (plus (plus (prod s ws) (prod d wd)) (prod e we)) (rowRep b1))) w2 b2

theorem edgeProj387 (x0 : Vec Ideal S3000x7 .bf16) (x2 : Vec Ideal S7x387 .f32) (x5 : Vec Ideal S1x387 .f32) :
    k0_pay1 (F := Ideal) x0 x2 x5 = affine x0 x2 x5 := by
  unfold k0_pay1
  simp only [shapeCast_self]
  rw [matmul_zero _ (by rfl), broadcastTo_row]
  rfl

theorem edgeProj128 (x0 : Vec Ideal S3000x7 .bf16) (x2 : Vec Ideal S7x128 .f32) (x5 : Vec Ideal S1x128 .f32) :
    k2_pay1 (F := Ideal) x0 x2 x5 = affine x0 x2 x5 := by
  unfold k2_pay1
  simp only [shapeCast_self]
  rw [matmul_zero _ (by rfl), broadcastTo_row]
  rfl

theorem nodeFirst (x0 x3 : Vec Ideal S2000x387 .f32) (x7 : Vec Ideal S387x128 .f32) (x10 : Vec Ideal S1x128 .f32)
    (x17 : Vec Ideal S128x128 .f32) (x20 : Vec Ideal S1x128 .f32) :
    k1_pay1 (F := Ideal) x0 x3 x7 x10 x17 x20 = nodeLayers x0 x3 x7 x10 x17 x20 := by
  unfold k1_pay1
  simp only [shapeCast_self]
  rw [matmul_zero _ (by rfl), matmul_zero _ (by rfl), broadcastTo_row, broadcastTo_row]
  rfl

theorem nodeSecond (x0 x4 : Vec Ideal S2000x128 .f32) (x8 : Vec Ideal S128x128 .f32) (x11 : Vec Ideal S1x128 .f32)
    (x18 : Vec Ideal S128x128 .f32) (x21 : Vec Ideal S1x128 .f32) :
    k3_pay1 (F := Ideal) x0 x4 x8 x11 x18 x21 = nodeLayers x0 x4 x8 x11 x18 x21 := by
  unfold k3_pay1
  simp only [shapeCast_self]
  rw [matmul_zero _ (by rfl), matmul_zero _ (by rfl), broadcastTo_row, broadcastTo_row]
  rfl

theorem edgeNet (x0 x2 : Vec Ideal S3000x128 .bf16) (x4 : Vec Ideal S3000x7 .bf16) (x6 x9 : Vec Ideal S128x128 .f32)
    (x12 : Vec Ideal S7x128 .f32) (x20 : Vec Ideal S1x128 .f32) (x27 : Vec Ideal S128x2 .f32) (x30 : Vec Ideal S1x2 .f32) :
    k4_pay1 (F := Ideal) x0 x2 x4 x6 x9 x12 x20 x27 x30 = edgeLayers x0 x2 x4 x6 x9 x12 x20 x27 x30 := by
  unfold k4_pay1
  simp only [shapeCast_self]
  rw [matmul_zero _ (by rfl), matmul_zero _ (by rfl), matmul_zero _ (by rfl), matmul_zero _ (by rfl),
    broadcastTo_row, broadcastTo_row]
  rfl

end Cert.KernelIdeal.Stored

end
-- ==== Proof.ProjFirst.lean ====
/-
  The first edge projection over the whole edge list.

  The region walks the 600000 edges in 200 bands of 3000 rows. At band t it reads rows 3000·t … 3000·t + 2999 of the
  edge attributes, the whole 7×387 weight matrix and the whole bias row, and writes the same band of rows of its
  result. A band of the projection is the projection of the band, and the 200 bands cover every row, so the result
  array ends holding the projection of the whole edge-attribute matrix.
-/
import proofs.«115617_j23519240913054_2_alg».proof.Proof.Gen.KernelIdeal.Frame
import proofs.«115617_j23519240913054_2_alg».proof.Proof.Stored

set_option maxRecDepth 16384

noncomputable section

namespace Cert.KernelIdeal.ProjFirst

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layers

variable (V : (c : Dev nD) → (b : Ref sig .tc) → Buf (Elt Ideal) ((c : Thread nD τ).loc b))

/-- Every rectangle the body loads or stores starts at the origin of its buffer. -/
theorem origin : (![0, 0] : Fin 2 → Nat) = fun _ => 0 := funext fun a => by fin_cases a <;> rfl

/-- Where each window's block sits at band `t`: the edge attributes and the result move with `t` along the rows, the
    weights and the bias stay put; there are 200 bands. -/
theorem maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 200 :=
  (by decide +kernel : ∀ t : Fin grid0.N, _)

theorem fits (t : Fin cfg0.N) : t.val * 3000 + 3000 ≤ 600000 := by
  have := (maps t).2.2.2.2.2.2.2.2; omega

/-- The block of edge attributes at band `t` is that band of rows. -/
theorem attrs_band (c : Dev nD) (t : Fin cfg0.N) :
    iblk0 V c 0 t = band (t.val * 3000) (fits t) (V c main_v4 : Mat 600000 7) := by
  obtain ⟨e0, e1, -⟩ := maps t
  funext y
  show V c main_v4 (((cfg0.win 0).blk t).view.emb y) = V c main_v4 _
  refine congrArg (V c main_v4) (funext fun a => Fin.ext ?_)
  match a with
  | ⟨0, _⟩ => show win0_0.index t (0 : Fin 2) * 3000 + 1 * (y 0).val = t.val * 3000 + (y 0).val; omega
  | ⟨1, _⟩ => show win0_0.index t (1 : Fin 2) * 7 + 1 * (y 1).val = (y 1).val; omega

/-- The block of weights at any band is the whole weight matrix. -/
theorem weights_whole (c : Dev nD) (t : Fin cfg0.N) : iblk0 V c 1 t = (V c main_arg3 : Mat 7 387) := by
  obtain ⟨-, -, e2, e3, -⟩ := maps t
  funext y
  show V c main_arg3 (((cfg0.win 1).blk t).view.emb y) = V c main_arg3 y
  refine congrArg (V c main_arg3) (funext fun a => Fin.ext ?_)
  match a with
  | ⟨0, _⟩ => show win0_1.index t (0 : Fin 2) * 7 + 1 * (y 0).val = (y 0).val; omega
  | ⟨1, _⟩ => show win0_1.index t (1 : Fin 2) * 387 + 1 * (y 1).val = (y 1).val; omega

/-- The block of the bias at any band is the whole bias row. -/
theorem bias_whole (c : Dev nD) (t : Fin cfg0.N) : iblk0 V c 2 t = (V c main_v5 : Mat 1 387) := by
  obtain ⟨-, -, -, -, e4, e5, -⟩ := maps t
  funext y
  show V c main_v5 (((cfg0.win 2).blk t).view.emb y) = V c main_v5 y
  refine congrArg (V c main_v5) (funext fun a => Fin.ext ?_)
  match a with
  | ⟨0, _⟩ => show win0_2.index t (0 : Fin 2) * 1 + 1 * (y 0).val = (y 0).val; omega
  | ⟨1, _⟩ => show win0_2.index t (1 : Fin 2) * 387 + 1 * (y 1).val = (y 1).val; omega

/-- Reading the result's block at band `t` out of a whole matrix takes that band of rows. -/
theorem result_band (t : Fin cfg0.N) (G : Mat 600000 387) :
    ((cfg0.win 3).blk t).view.read (Elt Ideal) G = band (t.val * 3000) (fits t) G := by
  obtain ⟨-, -, -, -, -, -, e6, e7, -⟩ := maps t
  funext y
  show G (((cfg0.win 3).blk t).view.emb y) = G _
  refine congrArg G (funext fun a => Fin.ext ?_)
  match a with
  | ⟨0, _⟩ => show win0_3.index t (0 : Fin 2) * 3000 + 1 * (y 0).val = t.val * 3000 + (y 0).val; omega
  | ⟨1, _⟩ => show win0_3.index t (1 : Fin 2) * 387 + 1 * (y 1).val = (y 1).val; omega

/-- What band `t` writes back is that band of the projection of the whole edge-attribute matrix. -/
theorem written (c : Dev nD) (t : Fin cfg0.N) :
    (dat0 V c).flushed 3 t = ((cfg0.win 3).blk t).view.read (Elt Ideal)
      (affine (V c main_v4 : Mat 600000 7) (V c main_arg3 : Mat 7 387) (V c main_v5 : Mat 1 387)) := by
  show (cfg0.win 3).cut (grid0.coords t) ((dat0 V c).after 3 t) = _
  rw [after0_3]
  unfold out0_3
  rw [View.canon_unit_zero origin]
  simp only [View.ld_unit_zero (S := S3000x7) origin, View.ld_unit_zero (S := S7x387) origin,
    View.ld_unit_zero (S := S1x387) origin]
  rw [Stored.edgeProj387, attrs_band V c t, weights_whole V c t, bias_whole V c t, result_band t]
  rfl

/-- An entry of the result lies in band `t`'s block exactly when each coordinate is in the block's range. -/
theorem in_block (t : Fin cfg0.N) (i : S600000x387.Idx) :
    i ∈ ((cfg0.win 3).blk t).view.set ↔ ∀ a : Fin 2, win0_3.index t a * S3000x387.size a ≤ (i a).val
      ∧ (i a).val < win0_3.index t a * S3000x387.size a + S3000x387.size a := by
  show i ∈ ((View.whole main_v6).slice (win0_3.rect t)).set ↔ _
  rw [View.set_slice_whole, Rect.mem_set_unit]
  exact Iff.rfl

/-- Every entry of the result is in the block of the band its row falls in. -/
theorem covered (i : S600000x387.Idx) :
    ∃ t : Fin cfg0.N, (cfg0.win 3).flush t = true ∧ i ∈ ((cfg0.win 3).blk t).view.set := by
  have hi0 := idx2_lt0 i
  have hi1 := idx2_lt1 i
  have ht : (i 0).val / 3000 < cfg0.N := lt_of_lt_of_eq (by omega) N_0.symm
  obtain ⟨-, -, -, -, -, -, e6, e7, -⟩ := maps ⟨(i 0).val / 3000, ht⟩
  refine ⟨⟨(i 0).val / 3000, ht⟩, flush0_3 _, ?_⟩
  rw [in_block]
  intro a
  match a with
  | ⟨0, _⟩ =>
    show win0_3.index ⟨(i 0).val / 3000, ht⟩ (0 : Fin 2) * 3000 ≤ (i 0).val
      ∧ (i 0).val < win0_3.index ⟨(i 0).val / 3000, ht⟩ (0 : Fin 2) * 3000 + 3000
    rw [e6]; show (i 0).val / 3000 * 3000 ≤ (i 0).val ∧ (i 0).val < (i 0).val / 3000 * 3000 + 3000; omega
  | ⟨1, _⟩ =>
    show win0_3.index ⟨(i 0).val / 3000, ht⟩ (1 : Fin 2) * 387 ≤ (i 1).val
      ∧ (i 1).val < win0_3.index ⟨(i 0).val / 3000, ht⟩ (1 : Fin 2) * 387 + 387
    rw [e7]; omega

/-- THE RESULT of the first edge projection: the projection of the whole edge-attribute matrix as the region finds it. -/
theorem whole (c : Dev nD) :
    (dat0 V c).arrAt 3 cfg0.N
      = affine (V c main_v4 : Mat 600000 7) (V c main_arg3 : Mat 7 387) (V c main_v5 : Mat 1 387) :=
  (dat0 V c).arrAt_eq_of_cover 3 _ (fun t _ => written V c t) covered

end Cert.KernelIdeal.ProjFirst

end
-- ==== Proof.UpdateFirst.lean ====
/-
  The first node update over all nodes.

  The region walks the 100000 nodes in 50 bands of 2000 rows. At band t it reads the same band of rows of the node
  features and of the aggregated messages, both weight matrices and both bias rows whole, and writes the same band of
  rows of its result. Every layer of the update acts row by row, so a band of the update is the update of the bands,
  and the 50 bands cover every node: the result array ends holding the update of the whole feature and message
  matrices.
-/
import proofs.«115617_j23519240913054_2_alg».proof.Proof.Gen.KernelIdeal.Frame
import proofs.«115617_j23519240913054_2_alg».proof.Proof.Stored

set_option maxRecDepth 16384

noncomputable section

namespace Cert.KernelIdeal.UpdateFirst

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layers

variable (V : (c : Dev nD) → (b : Ref sig .tc) → Buf (Elt Ideal) ((c : Thread nD τ).loc b))

/-- Every rectangle the body loads or stores starts at the origin of its buffer. -/
theorem origin : (![0, 0] : Fin 2 → Nat) = fun _ => 0 := funext fun a => by fin_cases a <;> rfl

/-- Where each window's block sits at band `t`: the features, the aggregated messages and the result move with `t` along the rows, the weights and biases stay put; there are 50 bands. -/
theorem maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ t.val < 50 :=
  (by decide +kernel : ∀ t : Fin grid1.N, _)

theorem fits (t : Fin cfg1.N) : t.val * 2000 + 2000 ≤ 100000 := by
  have := (maps t).2.2.2.2.2.2.2.2.2.2.2.2.2.2; omega

/-- The block of node features at band `t` is that band of rows. -/
theorem feats_band (c : Dev nD) (t : Fin cfg1.N) :
    iblk1 V c 0 t = band (t.val * 2000) (fits t) (V c main_arg0 : Mat 100000 387) := by
  obtain ⟨e0r, e0c, e1r, e1c, e2r, e2c, e3r, e3c, e4r, e4c, e5r, e5c, e6r, e6c, -⟩ := maps t
  funext y
  show V c main_arg0 (((cfg1.win 0).blk t).view.emb y) = V c main_arg0 _
  refine congrArg (V c main_arg0) (funext fun a => Fin.ext ?_)
  match a with
  | ⟨0, _⟩ => show win1_0.index t (0 : Fin 2) * 2000 + 1 * (y 0).val = t.val * 2000 + (y 0).val; omega
  | ⟨1, _⟩ => show win1_0.index t (1 : Fin 2) * 387 + 1 * (y 1).val = (y 1).val; omega

/-- The block of aggregated messages at band `t` is that band of rows. -/
theorem msgs_band (c : Dev nD) (t : Fin cfg1.N) :
    iblk1 V c 1 t = band (t.val * 2000) (fits t) (V c main_v18 : Mat 100000 387) := by
  obtain ⟨e0r, e0c, e1r, e1c, e2r, e2c, e3r, e3c, e4r, e4c, e5r, e5c, e6r, e6c, -⟩ := maps t
  funext y
  show V c main_v18 (((cfg1.win 1).blk t).view.emb y) = V c main_v18 _
  refine congrArg (V c main_v18) (funext fun a => Fin.ext ?_)
  match a with
  | ⟨0, _⟩ => show win1_1.index t (0 : Fin 2) * 2000 + 1 * (y 0).val = t.val * 2000 + (y 0).val; omega
  | ⟨1, _⟩ => show win1_1.index t (1 : Fin 2) * 387 + 1 * (y 1).val = (y 1).val; omega

/-- The block of the first weight matrix at any band is the whole of it. -/
theorem w1_whole (c : Dev nD) (t : Fin cfg1.N) : iblk1 V c 2 t = (V c main_arg5 : Mat 387 128) := by
  obtain ⟨e0r, e0c, e1r, e1c, e2r, e2c, e3r, e3c, e4r, e4c, e5r, e5c, e6r, e6c, -⟩ := maps t
  funext y
  show V c main_arg5 (((cfg1.win 2).blk t).view.emb y) = V c main_arg5 y
  refine congrArg (V c main_arg5) (funext fun a => Fin.ext ?_)
  match a with
  | ⟨0, _⟩ => show win1_2.index t (0 : Fin 2) * 387 + 1 * (y 0).val = (y 0).val; omega
  | ⟨1, _⟩ => show win1_2.index t (1 : Fin 2) * 128 + 1 * (y 1).val = (y 1).val; omega

/-- The block of the first bias row at any band is the whole of it. -/
theorem b1_whole (c : Dev nD) (t : Fin cfg1.N) : iblk1 V c 3 t = (V c main_v19 : Mat 1 128) := by
  obtain ⟨e0r, e0c, e1r, e1c, e2r, e2c, e3r, e3c, e4r, e4c, e5r, e5c, e6r, e6c, -⟩ := maps t
  funext y
  show V c main_v19 (((cfg1.win 3).blk t).view.emb y) = V c main_v19 y
  refine congrArg (V c main_v19) (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The block of the second weight matrix at any band is the whole of it. -/
theorem w2_whole (c : Dev nD) (t : Fin cfg1.N) : iblk1 V c 4 t = (V c main_arg7 : Mat 128 128) := by
  obtain ⟨e0r, e0c, e1r, e1c, e2r, e2c, e3r, e3c, e4r, e4c, e5r, e5c, e6r, e6c, -⟩ := maps t
  funext y
  show V c main_arg7 (((cfg1.win 4).blk t).view.emb y) = V c main_arg7 y
  refine congrArg (V c main_arg7) (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The block of the second bias row at any band is the whole of it. -/
theorem b2_whole (c : Dev nD) (t : Fin cfg1.N) : iblk1 V c 5 t = (V c main_v20 : Mat 1 128) := by
  obtain ⟨e0r, e0c, e1r, e1c, e2r, e2c, e3r, e3c, e4r, e4c, e5r, e5c, e6r, e6c, -⟩ := maps t
  funext y
  show V c main_v20 (((cfg1.win 5).blk t).view.emb y) = V c main_v20 y
  refine congrArg (V c main_v20) (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Reading the result's block at band `t` out of a whole matrix takes that band of rows. -/
theorem result_band (t : Fin cfg1.N) (G : Mat 100000 128) :
    ((cfg1.win 6).blk t).view.read (Elt Ideal) G = band (t.val * 2000) (fits t) G := by
  obtain ⟨e0r, e0c, e1r, e1c, e2r, e2c, e3r, e3c, e4r, e4c, e5r, e5c, e6r, e6c, -⟩ := maps t
  funext y
  show G (((cfg1.win 6).blk t).view.emb y) = G _
  refine congrArg G (funext fun a => Fin.ext ?_)
  match a with
  | ⟨0, _⟩ => show win1_6.index t (0 : Fin 2) * 2000 + 1 * (y 0).val = t.val * 2000 + (y 0).val; omega
  | ⟨1, _⟩ => show win1_6.index t (1 : Fin 2) * 128 + 1 * (y 1).val = (y 1).val; omega

/-- What band `t` writes back is that band of the two rectified layers applied to 1·features + messages. -/
theorem written (c : Dev nD) (t : Fin cfg1.N) :
    (dat1 V c).flushed 6 t = ((cfg1.win 6).blk t).view.read (Elt Ideal)
      (Stored.nodeLayers (V c main_arg0 : Mat 100000 387) (V c main_v18 : Mat 100000 387) (V c main_arg5 : Mat 387 128) (V c main_v19 : Mat 1 128) (V c main_arg7 : Mat 128 128) (V c main_v20 : Mat 1 128)) := by
  show (cfg1.win 6).cut (grid1.coords t) ((dat1 V c).after 6 t) = _
  rw [after1_6]
  unfold out1_6
  rw [View.canon_unit_zero origin]
  simp only [View.ld_unit_zero (S := S2000x387) origin,
    View.ld_unit_zero (S := S387x128) origin,
    View.ld_unit_zero (S := S1x128) origin,
    View.ld_unit_zero (S := S128x128) origin]
  rw [Stored.nodeFirst, feats_band V c t, msgs_band V c t, w1_whole V c t, b1_whole V c t, w2_whole V c t, b2_whole V c t, result_band t]
  rfl

/-- An entry of the result lies in band `t`'s block exactly when each coordinate is in the block's range. -/
theorem in_block (t : Fin cfg1.N) (i : S100000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v21).slice (win1_6.rect t)).set ↔ _
  rw [View.set_slice_whole, Rect.mem_set_unit]
  exact Iff.rfl

/-- Every entry of the result is in the block of the band its row falls in. -/
theorem covered (i : S100000x128.Idx) :
    ∃ t : Fin cfg1.N, (cfg1.win 6).flush t = true ∧ i ∈ ((cfg1.win 6).blk t).view.set := by
  have hi0 := idx2_lt0 i
  have hi1 := idx2_lt1 i
  have ht : (i 0).val / 2000 < cfg1.N := lt_of_lt_of_eq (by omega) N_1.symm
  obtain ⟨e0r, e0c, e1r, e1c, e2r, e2c, e3r, e3c, e4r, e4c, e5r, e5c, e6r, e6c, -⟩ := maps ⟨(i 0).val / 2000, ht⟩
  refine ⟨⟨(i 0).val / 2000, ht⟩, flush1_6 _, ?_⟩
  rw [in_block]
  intro a
  match a with
  | ⟨0, _⟩ =>
    show win1_6.index ⟨(i 0).val / 2000, ht⟩ (0 : Fin 2) * 2000 ≤ (i 0).val
      ∧ (i 0).val < win1_6.index ⟨(i 0).val / 2000, ht⟩ (0 : Fin 2) * 2000 + 2000
    rw [e6r]; show (i 0).val / 2000 * 2000 ≤ (i 0).val ∧ (i 0).val < (i 0).val / 2000 * 2000 + 2000; omega
  | ⟨1, _⟩ =>
    show win1_6.index ⟨(i 0).val / 2000, ht⟩ (1 : Fin 2) * 128 ≤ (i 1).val
      ∧ (i 1).val < win1_6.index ⟨(i 0).val / 2000, ht⟩ (1 : Fin 2) * 128 + 128
    rw [e6c]; omega

/-- THE RESULT: the array ends holding the two rectified layers applied to 1·features + messages, of the arrays as the region finds them. -/
theorem whole (c : Dev nD) :
    (dat1 V c).arrAt 6 cfg1.N
      = Stored.nodeLayers (V c main_arg0 : Mat 100000 387) (V c main_v18 : Mat 100000 387) (V c main_arg5 : Mat 387 128) (V c main_v19 : Mat 1 128) (V c main_arg7 : Mat 128 128) (V c main_v20 : Mat 1 128) :=
  (dat1 V c).arrAt_eq_of_cover 6 _ (fun t _ => written V c t) covered

end Cert.KernelIdeal.UpdateFirst

end
-- ==== Proof.ProjSecond.lean ====
/-
  The second edge projection over the whole edge list.

  As the first one, with a 7×128 weight matrix: 200 bands of 3000 edges, each band of the result the projection of the
  same band of the edge attributes, the bands covering every edge.
-/
import proofs.«115617_j23519240913054_2_alg».proof.Proof.Gen.KernelIdeal.Frame
import proofs.«115617_j23519240913054_2_alg».proof.Proof.Stored

set_option maxRecDepth 16384

noncomputable section

namespace Cert.KernelIdeal.ProjSecond

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layers

variable (V : (c : Dev nD) → (b : Ref sig .tc) → Buf (Elt Ideal) ((c : Thread nD τ).loc b))

/-- Every rectangle the body loads or stores starts at the origin of its buffer. -/
theorem origin : (![0, 0] : Fin 2 → Nat) = fun _ => 0 := funext fun a => by fin_cases a <;> rfl

/-- Where each window's block sits at band `t`: the edge attributes and the result move with `t` along the rows, the weights and the bias stay put; there are 200 bands. -/
theorem maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ t.val < 200 :=
  (by decide +kernel : ∀ t : Fin grid2.N, _)

theorem fits (t : Fin cfg2.N) : t.val * 3000 + 3000 ≤ 600000 := by
  have := (maps t).2.2.2.2.2.2.2.2; omega

/-- The block of edge attributes at band `t` is that band of rows. -/
theorem attrs_band (c : Dev nD) (t : Fin cfg2.N) :
    iblk2 V c 0 t = band (t.val * 3000) (fits t) (V c main_v4 : Mat 600000 7) := by
  obtain ⟨e0r, e0c, e1r, e1c, e2r, e2c, e3r, e3c, -⟩ := maps t
  funext y
  show V c main_v4 (((cfg2.win 0).blk t).view.emb y) = V c main_v4 _
  refine congrArg (V c main_v4) (funext fun a => Fin.ext ?_)
  match a with
  | ⟨0, _⟩ => show win2_0.index t (0 : Fin 2) * 3000 + 1 * (y 0).val = t.val * 3000 + (y 0).val; omega
  | ⟨1, _⟩ => show win2_0.index t (1 : Fin 2) * 7 + 1 * (y 1).val = (y 1).val; omega

/-- The block of the weight matrix at any band is the whole of it. -/
theorem weights_whole (c : Dev nD) (t : Fin cfg2.N) : iblk2 V c 1 t = (V c main_arg9 : Mat 7 128) := by
  obtain ⟨e0r, e0c, e1r, e1c, e2r, e2c, e3r, e3c, -⟩ := maps t
  funext y
  show V c main_arg9 (((cfg2.win 1).blk t).view.emb y) = V c main_arg9 y
  refine congrArg (V c main_arg9) (funext fun a => Fin.ext ?_)
  match a with
  | ⟨0, _⟩ => show win2_1.index t (0 : Fin 2) * 7 + 1 * (y 0).val = (y 0).val; omega
  | ⟨1, _⟩ => show win2_1.index t (1 : Fin 2) * 128 + 1 * (y 1).val = (y 1).val; omega

/-- The block of the bias row at any band is the whole of it. -/
theorem bias_whole (c : Dev nD) (t : Fin cfg2.N) : iblk2 V c 2 t = (V c main_v22 : Mat 1 128) := by
  obtain ⟨e0r, e0c, e1r, e1c, e2r, e2c, e3r, e3c, -⟩ := maps t
  funext y
  show V c main_v22 (((cfg2.win 2).blk t).view.emb y) = V c main_v22 y
  refine congrArg (V c main_v22) (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- Reading the result's block at band `t` out of a whole matrix takes that band of rows. -/
theorem result_band (t : Fin cfg2.N) (G : Mat 600000 128) :
    ((cfg2.win 3).blk t).view.read (Elt Ideal) G = band (t.val * 3000) (fits t) G := by
  obtain ⟨e0r, e0c, e1r, e1c, e2r, e2c, e3r, e3c, -⟩ := maps t
  funext y
  show G (((cfg2.win 3).blk t).view.emb y) = G _
  refine congrArg G (funext fun a => Fin.ext ?_)
  match a with
  | ⟨0, _⟩ => show win2_3.index t (0 : Fin 2) * 3000 + 1 * (y 0).val = t.val * 3000 + (y 0).val; omega
  | ⟨1, _⟩ => show win2_3.index t (1 : Fin 2) * 128 + 1 * (y 1).val = (y 1).val; omega

/-- What band `t` writes back is that band of the projection of the whole edge-attribute matrix. -/
theorem written (c : Dev nD) (t : Fin cfg2.N) :
    (dat2 V c).flushed 3 t = ((cfg2.win 3).blk t).view.read (Elt Ideal)
      (affine (V c main_v4 : Mat 600000 7) (V c main_arg9 : Mat 7 128) (V c main_v22 : Mat 1 128)) := by
  show (cfg2.win 3).cut (grid2.coords t) ((dat2 V c).after 3 t) = _
  rw [after2_3]
  unfold out2_3
  rw [View.canon_unit_zero origin]
  simp only [View.ld_unit_zero (S := S3000x7) origin,
    View.ld_unit_zero (S := S7x128) origin,
    View.ld_unit_zero (S := S1x128) origin]
  rw [Stored.edgeProj128, attrs_band V c t, weights_whole V c t, bias_whole V c t, result_band t]
  rfl

/-- An entry of the result lies in band `t`'s block exactly when each coordinate is in the block's range. -/
theorem in_block (t : Fin cfg2.N) (i : S600000x128.Idx) :
    i ∈ ((cfg2.win 3).blk t).view.set ↔ ∀ a : Fin 2, win2_3.index t a * S3000x128.size a ≤ (i a).val
      ∧ (i a).val < win2_3.index t a * S3000x128.size a + S3000x128.size a := by
  show i ∈ ((View.whole main_v23).slice (win2_3.rect t)).set ↔ _
  rw [View.set_slice_whole, Rect.mem_set_unit]
  exact Iff.rfl

/-- Every entry of the result is in the block of the band its row falls in. -/
theorem covered (i : S600000x128.Idx) :
    ∃ t : Fin cfg2.N, (cfg2.win 3).flush t = true ∧ i ∈ ((cfg2.win 3).blk t).view.set := by
  have hi0 := idx2_lt0 i
  have hi1 := idx2_lt1 i
  have ht : (i 0).val / 3000 < cfg2.N := lt_of_lt_of_eq (by omega) N_2.symm
  obtain ⟨e0r, e0c, e1r, e1c, e2r, e2c, e3r, e3c, -⟩ := maps ⟨(i 0).val / 3000, ht⟩
  refine ⟨⟨(i 0).val / 3000, ht⟩, flush2_3 _, ?_⟩
  rw [in_block]
  intro a
  match a with
  | ⟨0, _⟩ =>
    show win2_3.index ⟨(i 0).val / 3000, ht⟩ (0 : Fin 2) * 3000 ≤ (i 0).val
      ∧ (i 0).val < win2_3.index ⟨(i 0).val / 3000, ht⟩ (0 : Fin 2) * 3000 + 3000
    rw [e3r]; show (i 0).val / 3000 * 3000 ≤ (i 0).val ∧ (i 0).val < (i 0).val / 3000 * 3000 + 3000; omega
  | ⟨1, _⟩ =>
    show win2_3.index ⟨(i 0).val / 3000, ht⟩ (1 : Fin 2) * 128 ≤ (i 1).val
      ∧ (i 1).val < win2_3.index ⟨(i 0).val / 3000, ht⟩ (1 : Fin 2) * 128 + 128
    rw [e3c]; omega

/-- THE RESULT: the array ends holding the projection of the whole edge-attribute matrix, of the arrays as the region finds them. -/
theorem whole (c : Dev nD) :
    (dat2 V c).arrAt 3 cfg2.N
      = affine (V c main_v4 : Mat 600000 7) (V c main_arg9 : Mat 7 128) (V c main_v22 : Mat 1 128) :=
  (dat2 V c).arrAt_eq_of_cover 3 _ (fun t _ => written V c t) covered

end Cert.KernelIdeal.ProjSecond

end
-- ==== Proof.UpdateSecond.lean ====
/-
  The second node update over all nodes.

  As the first one, on 128 input features: 50 bands of 2000 nodes, each band of the result the update of the same bands
  of the hidden features and of the aggregated messages, the bands covering every node.
-/
import proofs.«115617_j23519240913054_2_alg».proof.Proof.Gen.KernelIdeal.Frame
import proofs.«115617_j23519240913054_2_alg».proof.Proof.Stored

set_option maxRecDepth 16384

noncomputable section

namespace Cert.KernelIdeal.UpdateSecond

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layers

variable (V : (c : Dev nD) → (b : Ref sig .tc) → Buf (Elt Ideal) ((c : Thread nD τ).loc b))

/-- Every rectangle the body loads or stores starts at the origin of its buffer. -/
theorem origin : (![0, 0] : Fin 2 → Nat) = fun _ => 0 := funext fun a => by fin_cases a <;> rfl

/-- Where each window's block sits at band `t`: the hidden features, the aggregated messages and the result move with `t` along the rows, the weights and biases stay put; there are 50 bands. -/
theorem maps : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0
    ∧ t.val < 50 :=
  (by decide +kernel : ∀ t : Fin grid3.N, _)

theorem fits (t : Fin cfg3.N) : t.val * 2000 + 2000 ≤ 100000 := by
  have := (maps t).2.2.2.2.2.2.2.2.2.2.2.2.2.2; omega

/-- The block of hidden features at band `t` is that band of rows. -/
theorem feats_band (c : Dev nD) (t : Fin cfg3.N) :
    iblk3 V c 0 t = band (t.val * 2000) (fits t) (V c main_v21 : Mat 100000 128) := by
  obtain ⟨e0r, e0c, e1r, e1c, e2r, e2c, e3r, e3c, e4r, e4c, e5r, e5c, e6r, e6c, -⟩ := maps t
  funext y
  show V c main_v21 (((cfg3.win 0).blk t).view.emb y) = V c main_v21 _
  refine congrArg (V c main_v21) (funext fun a => Fin.ext ?_)
  match a with
  | ⟨0, _⟩ => show win3_0.index t (0 : Fin 2) * 2000 + 1 * (y 0).val = t.val * 2000 + (y 0).val; omega
  | ⟨1, _⟩ => show win3_0.index t (1 : Fin 2) * 128 + 1 * (y 1).val = (y 1).val; omega

/-- The block of aggregated messages at band `t` is that band of rows. -/
theorem msgs_band (c : Dev nD) (t : Fin cfg3.N) :
    iblk3 V c 1 t = band (t.val * 2000) (fits t) (V c main_v35 : Mat 100000 128) := by
  obtain ⟨e0r, e0c, e1r, e1c, e2r, e2c, e3r, e3c, e4r, e4c, e5r, e5c, e6r, e6c, -⟩ := maps t
  funext y
  show V c main_v35 (((cfg3.win 1).blk t).view.emb y) = V c main_v35 _
  refine congrArg (V c main_v35) (funext fun a => Fin.ext ?_)
  match a with
  | ⟨0, _⟩ => show win3_1.index t (0 : Fin 2) * 2000 + 1 * (y 0).val = t.val * 2000 + (y 0).val; omega
  | ⟨1, _⟩ => show win3_1.index t (1 : Fin 2) * 128 + 1 * (y 1).val = (y 1).val; omega

/-- The block of the first weight matrix at any band is the whole of it. -/
theorem w1_whole (c : Dev nD) (t : Fin cfg3.N) : iblk3 V c 2 t = (V c main_arg11 : Mat 128 128) := by
  obtain ⟨e0r, e0c, e1r, e1c, e2r, e2c, e3r, e3c, e4r, e4c, e5r, e5c, e6r, e6c, -⟩ := maps t
  funext y
  show V c main_arg11 (((cfg3.win 2).blk t).view.emb y) = V c main_arg11 y
  refine congrArg (V c main_arg11) (funext fun a => Fin.ext ?_)
  match a with
  | ⟨0, _⟩ => show win3_2.index t (0 : Fin 2) * 128 + 1 * (y 0).val = (y 0).val; omega
  | ⟨1, _⟩ => show win3_2.index t (1 : Fin 2) * 128 + 1 * (y 1).val = (y 1).val; omega

/-- The block of the first bias row at any band is the whole of it. -/
theorem b1_whole (c : Dev nD) (t : Fin cfg3.N) : iblk3 V c 3 t = (V c main_v36 : Mat 1 128) := by
  obtain ⟨e0r, e0c, e1r, e1c, e2r, e2c, e3r, e3c, e4r, e4c, e5r, e5c, e6r, e6c, -⟩ := maps t
  funext y
  show V c main_v36 (((cfg3.win 3).blk t).view.emb y) = V c main_v36 y
  refine congrArg (V c main_v36) (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- The block of the second weight matrix at any band is the whole of it. -/
theorem w2_whole (c : Dev nD) (t : Fin cfg3.N) : iblk3 V c 4 t = (V c main_arg13 : Mat 128 128) := by
  obtain ⟨e0r, e0c, e1r, e1c, e2r, e2c, e3r, e3c, e4r, e4c, e5r, e5c, e6r, e6c, -⟩ := maps t
  funext y
  show V c main_arg13 (((cfg3.win 4).blk t).view.emb y) = V c main_arg13 y
  refine congrArg (V c main_arg13) (funext fun a => Fin.ext ?_)
  match a with
  | ⟨0, _⟩ => show win3_4.index t (0 : Fin 2) * 128 + 1 * (y 0).val = (y 0).val; omega
  | ⟨1, _⟩ => show win3_4.index t (1 : Fin 2) * 128 + 1 * (y 1).val = (y 1).val; omega

/-- The block of the second bias row at any band is the whole of it. -/
theorem b2_whole (c : Dev nD) (t : Fin cfg3.N) : iblk3 V c 5 t = (V c main_v37 : Mat 1 128) := by
  obtain ⟨e0r, e0c, e1r, e1c, e2r, e2c, e3r, e3c, e4r, e4c, e5r, e5c, e6r, e6c, -⟩ := maps t
  funext y
  show V c main_v37 (((cfg3.win 5).blk t).view.emb y) = V c main_v37 y
  refine congrArg (V c main_v37) (funext fun a => Fin.ext ?_)
  match a with
  | ⟨0, _⟩ => show win3_5.index t (0 : Fin 2) * 1 + 1 * (y 0).val = (y 0).val; omega
  | ⟨1, _⟩ => show win3_5.index t (1 : Fin 2) * 128 + 1 * (y 1).val = (y 1).val; omega

/-- Reading the result's block at band `t` out of a whole matrix takes that band of rows. -/
theorem result_band (t : Fin cfg3.N) (G : Mat 100000 128) :
    ((cfg3.win 6).blk t).view.read (Elt Ideal) G = band (t.val * 2000) (fits t) G := by
  obtain ⟨e0r, e0c, e1r, e1c, e2r, e2c, e3r, e3c, e4r, e4c, e5r, e5c, e6r, e6c, -⟩ := maps t
  funext y
  show G (((cfg3.win 6).blk t).view.emb y) = G _
  refine congrArg G (funext fun a => Fin.ext ?_)
  match a with
  | ⟨0, _⟩ => show win3_6.index t (0 : Fin 2) * 2000 + 1 * (y 0).val = t.val * 2000 + (y 0).val; omega
  | ⟨1, _⟩ => show win3_6.index t (1 : Fin 2) * 128 + 1 * (y 1).val = (y 1).val; omega

/-- What band `t` writes back is that band of the two rectified layers applied to 1·features + messages. -/
theorem written (c : Dev nD) (t : Fin cfg3.N) :
    (dat3 V c).flushed 6 t = ((cfg3.win 6).blk t).view.read (Elt Ideal)
      (Stored.nodeLayers (V c main_v21 : Mat 100000 128) (V c main_v35 : Mat 100000 128) (V c main_arg11 : Mat 128 128) (V c main_v36 : Mat 1 128) (V c main_arg13 : Mat 128 128) (V c main_v37 : Mat 1 128)) := by
  show (cfg3.win 6).cut (grid3.coords t) ((dat3 V c).after 6 t) = _
  rw [after3_6]
  unfold out3_6
  rw [View.canon_unit_zero origin]
  simp only [View.ld_unit_zero (S := S2000x128) origin,
    View.ld_unit_zero (S := S128x128) origin,
    View.ld_unit_zero (S := S1x128) origin]
  rw [Stored.nodeSecond, feats_band V c t, msgs_band V c t, w1_whole V c t, b1_whole V c t, w2_whole V c t, b2_whole V c t, result_band t]
  rfl

/-- An entry of the result lies in band `t`'s block exactly when each coordinate is in the block's range. -/
theorem in_block (t : Fin cfg3.N) (i : S100000x128.Idx) :
    i ∈ ((cfg3.win 6).blk t).view.set ↔ ∀ a : Fin 2, win3_6.index t a * S2000x128.size a ≤ (i a).val
      ∧ (i a).val < win3_6.index t a * S2000x128.size a + S2000x128.size a := by
  show i ∈ ((View.whole main_v38).slice (win3_6.rect t)).set ↔ _
  rw [View.set_slice_whole, Rect.mem_set_unit]
  exact Iff.rfl

/-- Every entry of the result is in the block of the band its row falls in. -/
theorem covered (i : S100000x128.Idx) :
    ∃ t : Fin cfg3.N, (cfg3.win 6).flush t = true ∧ i ∈ ((cfg3.win 6).blk t).view.set := by
  have hi0 := idx2_lt0 i
  have hi1 := idx2_lt1 i
  have ht : (i 0).val / 2000 < cfg3.N := lt_of_lt_of_eq (by omega) N_3.symm
  obtain ⟨e0r, e0c, e1r, e1c, e2r, e2c, e3r, e3c, e4r, e4c, e5r, e5c, e6r, e6c, -⟩ := maps ⟨(i 0).val / 2000, ht⟩
  refine ⟨⟨(i 0).val / 2000, ht⟩, flush3_6 _, ?_⟩
  rw [in_block]
  intro a
  match a with
  | ⟨0, _⟩ =>
    show win3_6.index ⟨(i 0).val / 2000, ht⟩ (0 : Fin 2) * 2000 ≤ (i 0).val
      ∧ (i 0).val < win3_6.index ⟨(i 0).val / 2000, ht⟩ (0 : Fin 2) * 2000 + 2000
    rw [e6r]; show (i 0).val / 2000 * 2000 ≤ (i 0).val ∧ (i 0).val < (i 0).val / 2000 * 2000 + 2000; omega
  | ⟨1, _⟩ =>
    show win3_6.index ⟨(i 0).val / 2000, ht⟩ (1 : Fin 2) * 128 ≤ (i 1).val
      ∧ (i 1).val < win3_6.index ⟨(i 0).val / 2000, ht⟩ (1 : Fin 2) * 128 + 128
    rw [e6c]; omega

/-- THE RESULT: the array ends holding the two rectified layers applied to 1·features + messages, of the arrays as the region finds them. -/
theorem whole (c : Dev nD) :
    (dat3 V c).arrAt 6 cfg3.N
      = Stored.nodeLayers (V c main_v21 : Mat 100000 128) (V c main_v35 : Mat 100000 128) (V c main_arg11 : Mat 128 128) (V c main_v36 : Mat 1 128) (V c main_arg13 : Mat 128 128) (V c main_v37 : Mat 1 128) :=
  (dat3 V c).arrAt_eq_of_cover 6 _ (fun t _ => written V c t) covered

end Cert.KernelIdeal.UpdateSecond

end
-- ==== Proof.EdgeNet.lean ====
/-
  The edge network over the whole edge list.

  The region walks the 600000 edges in 200 bands of 3000 rows. At band t it reads the same band of rows of the features
  gathered at the edges' sources, of the features gathered at their destinations and of the edge attributes, the three
  slices of the first weight matrix, the output matrix and both bias rows whole, and writes the same band of rows of
  its result. Every layer acts row by row and the bands cover every edge, so the result array ends holding the edge
  network of the whole gathered matrices.
-/
import proofs.«115617_j23519240913054_2_alg».proof.Proof.Gen.KernelIdeal.Frame
import proofs.«115617_j23519240913054_2_alg».proof.Proof.Stored

set_option maxRecDepth 16384

noncomputable section

namespace Cert.KernelIdeal.EdgeNet

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layers

variable (V : (c : Dev nD) → (b : Ref sig .tc) → Buf (Elt Ideal) ((c : Thread nD τ).loc b))

/-- Every rectangle the body loads or stores starts at the origin of its buffer. -/
theorem origin : (![0, 0] : Fin 2 → Nat) = fun _ => 0 := funext fun a => by fin_cases a <;> rfl

/-- Where each window's block sits at band `t`: the two gathered feature matrices, the edge attributes and the result move with `t` along the rows, the weights and biases stay put; there are 200 bands. -/
theorem maps : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = t.val ∧ win4_9.index t (1 : Fin 2) = 0
    ∧ t.val < 200 :=
  (by decide +kernel : ∀ t : Fin grid4.N, _)

theorem fits (t : Fin cfg4.N) : t.val * 3000 + 3000 ≤ 600000 := by
  have := (maps t).2.2.2.2.2.2.2.2.2.2.2.2.2.2.2.2.2.2.2.2; omega

/-- The block of source features at band `t` is that band of rows. -/
theorem src_band (c : Dev nD) (t : Fin cfg4.N) :
    iblk4 V c 0 t = band (t.val * 3000) (fits t) (V c main_v46 : Mat 600000 128) := by
  obtain ⟨e0r, e0c, e1r, e1c, e2r, e2c, e3r, e3c, e4r, e4c, e5r, e5c, e6r, e6c, e7r, e7c, e8r, e8c, e9r, e9c, -⟩ := maps t
  funext y
  show V c main_v46 (((cfg4.win 0).blk t).view.emb y) = V c main_v46 _
  refine congrArg (V c main_v46) (funext fun a => Fin.ext ?_)
  match a with
  | ⟨0, _⟩ => show win4_0.index t (0 : Fin 2) * 3000 + 1 * (y 0).val = t.val * 3000 + (y 0).val; omega
  | ⟨1, _⟩ => show win4_0.index t (1 : Fin 2) * 128 + 1 * (y 1).val = (y 1).val; omega

/-- The block of destination features at band `t` is that band of rows. -/
theorem dst_band (c : Dev nD) (t : Fin cfg4.N) :
    iblk4 V c 1 t = band (t.val * 3000) (fits t) (V c main_v53 : Mat 600000 128) := by
  obtain ⟨e0r, e0c, e1r, e1c, e2r, e2c, e3r, e3c, e4r, e4c, e5r, e5c, e6r, e6c, e7r, e7c, e8r, e8c, e9r, e9c, -⟩ := maps t
  funext y
  show V c main_v53 (((cfg4.win 1).blk t).view.emb y) = V c main_v53 _
  refine congrArg (V c main_v53) (funext fun a => Fin.ext ?_)
  match a with
  | ⟨0, _⟩ => show win4_1.index t (0 : Fin 2) * 3000 + 1 * (y 0).val = t.val * 3000 + (y 0).val; omega
  | ⟨1, _⟩ => show win4_1.index t (1 : Fin 2) * 128 + 1 * (y 1).val = (y 1).val; omega

/-- The block of edge attributes at band `t` is that band of rows. -/
theorem attrs_band (c : Dev nD) (t : Fin cfg4.N) :
    iblk4 V c 2 t = band (t.val * 3000) (fits t) (V c main_v4 : Mat 600000 7) := by
  obtain ⟨e0r, e0c, e1r, e1c, e2r, e2c, e3r, e3c, e4r, e4c, e5r, e5c, e6r, e6c, e7r, e7c, e8r, e8c, e9r, e9c, -⟩ := maps t
  funext y
  show V c main_v4 (((cfg4.win 2).blk t).view.emb y) = V c main_v4 _
  refine congrArg (V c main_v4) (funext fun a => Fin.ext ?_)
  match a with
  | ⟨0, _⟩ => show win4_2.index t (0 : Fin 2) * 3000 + 1 * (y 0).val = t.val * 3000 + (y 0).val; omega
  | ⟨1, _⟩ => show win4_2.index t (1 : Fin 2) * 7 + 1 * (y 1).val = (y 1).val; omega

/-- The block of the source slice of the weights at any band is the whole of it. -/
theorem ws_whole (c : Dev nD) (t : Fin cfg4.N) : iblk4 V c 3 t = (V c main_v54 : Mat 128 128) := by
  obtain ⟨e0r, e0c, e1r, e1c, e2r, e2c, e3r, e3c, e4r, e4c, e5r, e5c, e6r, e6c, e7r, e7c, e8r, e8c, e9r, e9c, -⟩ := maps t
  funext y
  show V c main_v54 (((cfg4.win 3).blk t).view.emb y) = V c main_v54 y
  refine congrArg (V c main_v54) (funext fun a => Fin.ext ?_)
  match a with
  | ⟨0, _⟩ => show win4_3.index t (0 : Fin 2) * 128 + 1 * (y 0).val = (y 0).val; omega
  | ⟨1, _⟩ => show win4_3.index t (1 : Fin 2) * 128 + 1 * (y 1).val = (y 1).val; omega

/-- The block of the destination slice of the weights at any band is the whole of it. -/
theorem wd_whole (c : Dev nD) (t : Fin cfg4.N) : iblk4 V c 4 t = (V c main_v55 : Mat 128 128) := by
  obtain ⟨e0r, e0c, e1r, e1c, e2r, e2c, e3r, e3c, e4r, e4c, e5r, e5c, e6r, e6c, e7r, e7c, e8r, e8c, e9r, e9c, -⟩ := maps t
  funext y
  show V c main_v55 (((cfg4.win 4).blk t).view.emb y) = V c main_v55 y
  refine congrArg (V c main_v55) (funext fun a => Fin.ext ?_)
  match a with
  | ⟨0, _⟩ => show win4_4.index t (0 : Fin 2) * 128 + 1 * (y 0).val = (y 0).val; omega
  | ⟨1, _⟩ => show win4_4.index t (1 : Fin 2) * 128 + 1 * (y 1).val = (y 1).val; omega

/-- The block of the attribute slice of the weights at any band is the whole of it. -/
theorem we_whole (c : Dev nD) (t : Fin cfg4.N) : iblk4 V c 5 t = (V c main_v56 : Mat 7 128) := by
  obtain ⟨e0r, e0c, e1r, e1c, e2r, e2c, e3r, e3c, e4r, e4c, e5r, e5c, e6r, e6c, e7r, e7c, e8r, e8c, e9r, e9c, -⟩ := maps t
  funext y
  show V c main_v56 (((cfg4.win 5).blk t).view.emb y) = V c main_v56 y
  refine congrArg (V c main_v56) (funext fun a => Fin.ext ?_)
  match a with
  | ⟨0, _⟩ => show win4_5.index t (0 : Fin 2) * 7 + 1 * (y 0).val = (y 0).val; omega
  | ⟨1, _⟩ => show win4_5.index t (1 : Fin 2) * 128 + 1 * (y 1).val = (y 1).val; omega

/-- The block of the hidden bias row at any band is the whole of it. -/
theorem b1_whole (c : Dev nD) (t : Fin cfg4.N) : iblk4 V c 6 t = (V c main_v57 : Mat 1 128) := by
  obtain ⟨e0r, e0c, e1r, e1c, e2r, e2c, e3r, e3c, e4r, e4c, e5r, e5c, e6r, e6c, e7r, e7c, e8r, e8c, e9r, e9c, -⟩ := maps t
  funext y
  show V c main_v57 (((cfg4.win 6).blk t).view.emb y) = V c main_v57 y
  refine congrArg (V c main_v57) (funext fun a => Fin.ext ?_)
  match a with
  | ⟨0, _⟩ => show win4_6.index t (0 : Fin 2) * 1 + 1 * (y 0).val = (y 0).val; omega
  | ⟨1, _⟩ => show win4_6.index t (1 : Fin 2) * 128 + 1 * (y 1).val = (y 1).val; omega

/-- The block of the output matrix at any band is the whole of it. -/
theorem w2_whole (c : Dev nD) (t : Fin cfg4.N) : iblk4 V c 7 t = (V c main_arg17 : Mat 128 2) := by
  obtain ⟨e0r, e0c, e1r, e1c, e2r, e2c, e3r, e3c, e4r, e4c, e5r, e5c, e6r, e6c, e7r, e7c, e8r, e8c, e9r, e9c, -⟩ := maps t
  funext y
  show V c main_arg17 (((cfg4.win 7).blk t).view.emb y) = V c main_arg17 y
  refine congrArg (V c main_arg17) (funext fun a => Fin.ext ?_)
  match a with
  | ⟨0, _⟩ => show win4_7.index t (0 : Fin 2) * 128 + 1 * (y 0).val = (y 0).val; omega
  | ⟨1, _⟩ => show win4_7.index t (1 : Fin 2) * 2 + 1 * (y 1).val = (y 1).val; omega

/-- The block of the output bias row at any band is the whole of it. -/
theorem b2_whole (c : Dev nD) (t : Fin cfg4.N) : iblk4 V c 8 t = (V c main_v58 : Mat 1 2) := by
  obtain ⟨e0r, e0c, e1r, e1c, e2r, e2c, e3r, e3c, e4r, e4c, e5r, e5c, e6r, e6c, e7r, e7c, e8r, e8c, e9r, e9c, -⟩ := maps t
  funext y
  show V c main_v58 (((cfg4.win 8).blk t).view.emb y) = V c main_v58 y
  refine congrArg (V c main_v58) (funext fun a => Fin.ext ?_)
  match a with
  | ⟨0, _⟩ => show win4_8.index t (0 : Fin 2) * 1 + 1 * (y 0).val = (y 0).val; omega
  | ⟨1, _⟩ => show win4_8.index t (1 : Fin 2) * 2 + 1 * (y 1).val = (y 1).val; omega

/-- Reading the result's block at band `t` out of a whole matrix takes that band of rows. -/
theorem result_band (t : Fin cfg4.N) (G : Mat 600000 2) :
    ((cfg4.win 9).blk t).view.read (Elt Ideal) G = band (t.val * 3000) (fits t) G := by
  obtain ⟨e0r, e0c, e1r, e1c, e2r, e2c, e3r, e3c, e4r, e4c, e5r, e5c, e6r, e6c, e7r, e7c, e8r, e8c, e9r, e9c, -⟩ := maps t
  funext y
  show G (((cfg4.win 9).blk t).view.emb y) = G _
  refine congrArg G (funext fun a => Fin.ext ?_)
  match a with
  | ⟨0, _⟩ => show win4_9.index t (0 : Fin 2) * 3000 + 1 * (y 0).val = t.val * 3000 + (y 0).val; omega
  | ⟨1, _⟩ => show win4_9.index t (1 : Fin 2) * 2 + 1 * (y 1).val = (y 1).val; omega

/-- What band `t` writes back is that band of the edge network of the whole gathered features and edge attributes. -/
theorem written (c : Dev nD) (t : Fin cfg4.N) :
    (dat4 V c).flushed 9 t = ((cfg4.win 9).blk t).view.read (Elt Ideal)
      (Stored.edgeLayers (V c main_v46 : Mat 600000 128) (V c main_v53 : Mat 600000 128) (V c main_v4 : Mat 600000 7) (V c main_v54 : Mat 128 128) (V c main_v55 : Mat 128 128) (V c main_v56 : Mat 7 128) (V c main_v57 : Mat 1 128) (V c main_arg17 : Mat 128 2) (V c main_v58 : Mat 1 2)) := by
  show (cfg4.win 9).cut (grid4.coords t) ((dat4 V c).after 9 t) = _
  rw [after4_9]
  unfold out4_9
  rw [View.canon_unit_zero origin]
  simp only [View.ld_unit_zero (S := S3000x128) origin,
    View.ld_unit_zero (S := S3000x7) origin,
    View.ld_unit_zero (S := S128x128) origin,
    View.ld_unit_zero (S := S7x128) origin,
    View.ld_unit_zero (S := S1x128) origin,
    View.ld_unit_zero (S := S128x2) origin,
    View.ld_unit_zero (S := S1x2) origin]
  rw [Stored.edgeNet, src_band V c t, dst_band V c t, attrs_band V c t, ws_whole V c t, wd_whole V c t, we_whole V c t, b1_whole V c t, w2_whole V c t, b2_whole V c t, result_band t]
  rfl

/-- An entry of the result lies in band `t`'s block exactly when each coordinate is in the block's range. -/
theorem in_block (t : Fin cfg4.N) (i : S600000x2.Idx) :
    i ∈ ((cfg4.win 9).blk t).view.set ↔ ∀ a : Fin 2, win4_9.index t a * S3000x2.size a ≤ (i a).val
      ∧ (i a).val < win4_9.index t a * S3000x2.size a + S3000x2.size a := by
  show i ∈ ((View.whole main_v59).slice (win4_9.rect t)).set ↔ _
  rw [View.set_slice_whole, Rect.mem_set_unit]
  exact Iff.rfl

/-- Every entry of the result is in the block of the band its row falls in. -/
theorem covered (i : S600000x2.Idx) :
    ∃ t : Fin cfg4.N, (cfg4.win 9).flush t = true ∧ i ∈ ((cfg4.win 9).blk t).view.set := by
  have hi0 := idx2_lt0 i
  have hi1 := idx2_lt1 i
  have ht : (i 0).val / 3000 < cfg4.N := lt_of_lt_of_eq (by omega) N_4.symm
  obtain ⟨e0r, e0c, e1r, e1c, e2r, e2c, e3r, e3c, e4r, e4c, e5r, e5c, e6r, e6c, e7r, e7c, e8r, e8c, e9r, e9c, -⟩ := maps ⟨(i 0).val / 3000, ht⟩
  refine ⟨⟨(i 0).val / 3000, ht⟩, flush4_9 _, ?_⟩
  rw [in_block]
  intro a
  match a with
  | ⟨0, _⟩ =>
    show win4_9.index ⟨(i 0).val / 3000, ht⟩ (0 : Fin 2) * 3000 ≤ (i 0).val
      ∧ (i 0).val < win4_9.index ⟨(i 0).val / 3000, ht⟩ (0 : Fin 2) * 3000 + 3000
    rw [e9r]; show (i 0).val / 3000 * 3000 ≤ (i 0).val ∧ (i 0).val < (i 0).val / 3000 * 3000 + 3000; omega
  | ⟨1, _⟩ =>
    show win4_9.index ⟨(i 0).val / 3000, ht⟩ (1 : Fin 2) * 2 ≤ (i 1).val
      ∧ (i 1).val < win4_9.index ⟨(i 0).val / 3000, ht⟩ (1 : Fin 2) * 2 + 2
    rw [e9c]; omega

/-- THE RESULT: the array ends holding the edge network of the whole gathered features and edge attributes, of the arrays as the region finds them. -/
theorem whole (c : Dev nD) :
    (dat4 V c).arrAt 9 cfg4.N
      = Stored.edgeLayers (V c main_v46 : Mat 600000 128) (V c main_v53 : Mat 600000 128) (V c main_v4 : Mat 600000 7) (V c main_v54 : Mat 128 128) (V c main_v55 : Mat 128 128) (V c main_v56 : Mat 7 128) (V c main_v57 : Mat 1 128) (V c main_arg17 : Mat 128 2) (V c main_v58 : Mat 1 2) :=
  (dat4 V c).arrAt_eq_of_cover 9 _ (fun t _ => written V c t) covered

end Cert.KernelIdeal.EdgeNet

end
-- ==== Proof.Links.lean ====
/-
  The kernel's chain of valuations, one link at a time.

  A region leaves every buffer that is not one of its windows as it found it, and leaves an input window's array as it
  found it too; its output array ends holding the region's layer of its input arrays as the region found them (the
  five whole-array results). With these links, and the host operations' own results, the contents of the result buffer
  at the end of the chain unroll to a term over the launch memory.
-/
import proofs.«115617_j23519240913054_2_alg».proof.Proof.Gen.KernelIdeal.Frame
import proofs.«115617_j23519240913054_2_alg».proof.Proof.ProjFirst
import proofs.«115617_j23519240913054_2_alg».proof.Proof.UpdateFirst
import proofs.«115617_j23519240913054_2_alg».proof.Proof.ProjSecond
import proofs.«115617_j23519240913054_2_alg».proof.Proof.UpdateSecond
import proofs.«115617_j23519240913054_2_alg».proof.Proof.EdgeNet

set_option maxRecDepth 16384

noncomputable section

namespace Cert.KernelIdeal.Links

open Idealize.ShloMosaic Idealize.ShloMosaic.TcCoe Idealize.ShloMosaic.ValueIdx Idealize.SL.Sem Idealize.ShloMosaic.StableHlo
open Cert.KernelIdeal Cert.KernelIdeal.Gen Cert.Layers

variable (m : (ℓ : Loc nD τ sig) → Buf (Elt Ideal) ℓ) (ρ : Dev nD → PrngReg)

/-! ## A buffer that is none of a region's windows passes through it -/

theorem past0 (c : Dev nD) (b : Ref sig .tc) (hb : ∀ w, Pipeline.arrRef spec0 w ≠ b) :
    W2 m ρ c (no_index (Proc.devRef .tc b)) = W1 m ρ c (Proc.devRef .tc b) := W2_of_ne m ρ c b hb
theorem past1 (c : Dev nD) (b : Ref sig .tc) (hb : ∀ w, Pipeline.arrRef spec1 w ≠ b) :
    W6 m ρ c (no_index (Proc.devRef .tc b)) = W5 m ρ c (Proc.devRef .tc b) := W6_of_ne m ρ c b hb
theorem past2 (c : Dev nD) (b : Ref sig .tc) (hb : ∀ w, Pipeline.arrRef spec2 w ≠ b) :
    W8 m ρ c (no_index (Proc.devRef .tc b)) = W7 m ρ c (Proc.devRef .tc b) := W8_of_ne m ρ c b hb
theorem past3 (c : Dev nD) (b : Ref sig .tc) (hb : ∀ w, Pipeline.arrRef spec3 w ≠ b) :
    W12 m ρ c (no_index (Proc.devRef .tc b)) = W11 m ρ c (Proc.devRef .tc b) := W12_of_ne m ρ c b hb
theorem past4 (c : Dev nD) (b : Ref sig .tc) (hb : ∀ w, Pipeline.arrRef spec4 w ≠ b) :
    W14 m ρ c (no_index (Proc.devRef .tc b)) = W13 m ρ c (Proc.devRef .tc b) := W14_of_ne m ρ c b hb

/-! ## The edge attributes are an input window of both projections, and pass through them -/

theorem attrs_past0 (c : Dev nD) : W2 m ρ c (no_index (Proc.devRef .tc main_v4)) = W1 m ρ c (Proc.devRef .tc main_v4) :=
  (W2_arr m ρ c 0).trans (((dat0 (V1 m ρ) c).arrAt_in 0 rfl _).trans (A_eq0 (V1 m ρ) c 0))
theorem attrs_past2 (c : Dev nD) : W8 m ρ c (no_index (Proc.devRef .tc main_v4)) = W7 m ρ c (Proc.devRef .tc main_v4) :=
  (W8_arr m ρ c 0).trans (((dat2 (V7 m ρ) c).arrAt_in 0 rfl _).trans (A_eq2 (V7 m ρ) c 0))

/-! ## Each region's output, of its input arrays as it finds them -/

theorem proj_first (c : Dev nD) : W2 m ρ c (no_index (Proc.devRef .tc main_v6))
    = affine (W1 m ρ c (Proc.devRef .tc main_v4) : Mat 600000 7) (W1 m ρ c (Proc.devRef .tc main_arg3) : Mat 7 387)
        (W1 m ρ c (Proc.devRef .tc main_v5) : Mat 1 387) :=
  (W2_arr m ρ c 3).trans (ProjFirst.whole (V1 m ρ) c)

theorem update_first (c : Dev nD) : W6 m ρ c (no_index (Proc.devRef .tc main_v21))
    = Stored.nodeLayers (W5 m ρ c (Proc.devRef .tc main_arg0) : Mat 100000 387) (W5 m ρ c (Proc.devRef .tc main_v18) : Mat 100000 387)
        (W5 m ρ c (Proc.devRef .tc main_arg5) : Mat 387 128) (W5 m ρ c (Proc.devRef .tc main_v19) : Mat 1 128)
        (W5 m ρ c (Proc.devRef .tc main_arg7) : Mat 128 128) (W5 m ρ c (Proc.devRef .tc main_v20) : Mat 1 128) :=
  (W6_arr m ρ c 6).trans (UpdateFirst.whole (V5 m ρ) c)

theorem proj_second (c : Dev nD) : W8 m ρ c (no_index (Proc.devRef .tc main_v23))
    = affine (W7 m ρ c (Proc.devRef .tc main_v4) : Mat 600000 7) (W7 m ρ c (Proc.devRef .tc main_arg9) : Mat 7 128)
        (W7 m ρ c (Proc.devRef .tc main_v22) : Mat 1 128) :=
  (W8_arr m ρ c 3).trans (ProjSecond.whole (V7 m ρ) c)

theorem update_second (c : Dev nD) : W12 m ρ c (no_index (Proc.devRef .tc main_v38))
    = Stored.nodeLayers (W11 m ρ c (Proc.devRef .tc main_v21) : Mat 100000 128) (W11 m ρ c (Proc.devRef .tc main_v35) : Mat 100000 128)
        (W11 m ρ c (Proc.devRef .tc main_arg11) : Mat 128 128) (W11 m ρ c (Proc.devRef .tc main_v36) : Mat 1 128)
        (W11 m ρ c (Proc.devRef .tc main_arg13) : Mat 128 128) (W11 m ρ c (Proc.devRef .tc main_v37) : Mat 1 128) :=
  (W12_arr m ρ c 6).trans (UpdateSecond.whole (V11 m ρ) c)

theorem edge_net (c : Dev nD) : W14 m ρ c (no_index (Proc.devRef .tc main_v59))
    = Stored.edgeLayers (W13 m ρ c (Proc.devRef .tc main_v46) : Mat 600000 128) (W13 m ρ c (Proc.devRef .tc main_v53) : Mat 600000 128)
        (W13 m ρ c (Proc.devRef .tc main_v4) : Mat 600000 7) (W13 m ρ c (Proc.devRef .tc main_v54) : Mat 128 128)
        (W13 m ρ c (Proc.devRef .tc main_v55) : Mat 128 128) (W13 m ρ c (Proc.devRef .tc main_v56) : Mat 7 128)
        (W13 m ρ c (Proc.devRef .tc main_v57) : Mat 1 128) (W13 m ρ c (Proc.devRef .tc main_arg17) : Mat 128 2)
        (W13 m ρ c (Proc.devRef .tc main_v58) : Mat 1 2) :=
  (W14_arr m ρ c 9).trans (EdgeNet.whole (V13 m ρ) c)

end Cert.KernelIdeal.Links

end
-- ==== Proof.LibTypedMoves.lean ====
/-
  Reading a line of host operations back to a pure term: two facts about outlined functions' operations, and two
  rewriting loops.

  An operation of a module-local function (jnp.where, relu, log_softmax, …) is spelt over typed references: its
  function is stated at the value's type T and moved to the buffer's own type along the reference's proof that the
  two agree (`toBuf`), an operand's contents the other way (`ofBuf`).  For a buffer of the printed signature the
  value's type IS the buffer's type, so both moves are the identity:

  * `ofBuf_self`, `toBuf_self`: the identity, stated at T := the buffer's own type so that rewriting with them
    unifies T with the buffer's type by unfolding the signature once per buffer.  A goal that still carries the
    moves around a `Host.reduce` or a `select` over large operands is expensive to close by unfolding; after
    `strip_moves` it is an equation between pure terms.
  * `read_back`: the result lemmas of Lib/StableHlo/Run.lean as a rewriting loop.  After the one-pass form
    (`after_results_simp`) a buffer read that sits inside a concatenate's operand list — a dependent pair of a
    shape and an array — is left as an unrewritten chain of `.result`; this loop clears those.
-/
import Idealize.ShloMosaic.Lib.StableHlo.Run

noncomputable section

namespace Idealize.ShloMosaic.TypedMoves

open Idealize.ShloMosaic Idealize.ShloMosaic.StableHlo

/-- An operand of an outlined function's operation, read at the value's type when that is the buffer's own type:
    the move is the identity. -/
theorem ofBuf_self {sig : RefSig} {Val : EltTy → Type} (r : Ref sig .tc) (p1 : r.ty = r.ty) (p2 : r.space ≠ .host)
    (p3 : r.isScoped = false) (a : r.ty.Contents Val) : (TRef.of (T := r.ty) r p1 p2 p3).ofBuf a = a := rfl

/-- The result of an outlined function's operation, written at the buffer's own type: the same identity. -/
theorem toBuf_self {sig : RefSig} {Val : EltTy → Type} (r : Ref sig .tc) (p1 : r.ty = r.ty) (p2 : r.space ≠ .host)
    (p3 : r.isScoped = false) (v : r.ty.Contents Val) : (TRef.of (T := r.ty) r p1 p2 p3).toBuf v = v := rfl

/-- Removes the moves between a value's type and its buffer's type, one buffer at a time. -/
macro "strip_moves" : tactic => `(tactic| (repeat (first | rw [ofBuf_self] | rw [toBuf_self])))

/-- Reads a buffer back through the operations left in the goal, one rewriting step per operation and reference. -/
macro "read_back" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

end Idealize.ShloMosaic.TypedMoves

end
-- ==== Proof.SideBySide.lean ====
/-
  The product of matrices set side by side.

  Set an M×128, an M×128 and an M×7 matrix side by side into an M×263 matrix and multiply by a 263×H matrix W. Entry
  (r, c) of the product sums over the 263 columns; the first 128 columns are the first matrix against rows 0 … 127 of W,
  the next 128 the second matrix against rows 128 … 255, and the last 7 the third matrix against rows 256 … 262. So the
  product is the sum of the three products with the three bands of rows of W. Only the splitting of a finite sum is
  used, which holds on the extended reals as in any commutative additive monoid.
-/
import proofs.«115617_j23519240913054_2_alg».proof.Proof.Layers
import Idealize.ShloMosaic.Lib.Pipeline.Value

noncomputable section

namespace Cert.Layers

open Idealize.ShloMosaic Idealize.ShloMosaic.ValueIdx

variable {M H : Nat}

/-- The three matrices side by side, as the programs spell it. -/
abbrev sideBySide (s d : Mat M 128) (e : Mat M 7)
    (h : Shape.Concatenates ([(⟨⟨2, ![M, 128]⟩, s⟩ : (s : Shape) × (s.Idx → EReal)), ⟨⟨2, ![M, 128]⟩, d⟩, ⟨⟨2, ![M, 7]⟩, e⟩].map (·.1))
      ⟨2, ![M, 263]⟩ (1 : Fin 2)) : Mat M 263 :=
  concatenate ⟨2, ![M, 263]⟩ (1 : Fin 2) [⟨⟨2, ![M, 128]⟩, s⟩, ⟨⟨2, ![M, 128]⟩, d⟩, ⟨⟨2, ![M, 7]⟩, e⟩] h

/-- A column among the first 128 is the first matrix's. -/
theorem side_first (s d : Mat M 128) (e : Mat M 7) (h) (r : Fin M) (q : Fin 263) (k : Fin 128) (hq : q.val = k.val) :
    sideBySide s d e h (ix2 r q) = s (ix2 r k) := by
  refine concatenate_apply_piece (1 : Fin 2) _ h (ix2 r q) 0 (by show (0 : Nat) < 3; omega) ⟨2, ![M, 128]⟩ s rfl rfl 0 rfl (ix2 r k)
    (fun b hb => ?_) ?_
  · match b with
    | ⟨0, _⟩ => rfl
    | ⟨1, _⟩ => exact absurd rfl hb
  · show 0 + k.val = q.val; omega

/-- A column among the next 128 is the second matrix's. -/
theorem side_second (s d : Mat M 128) (e : Mat M 7) (h) (r : Fin M) (q : Fin 263) (k : Fin 128) (hq : q.val = 128 + k.val) :
    sideBySide s d e h (ix2 r q) = d (ix2 r k) := by
  refine concatenate_apply_piece (1 : Fin 2) _ h (ix2 r q) 1 (by show (1 : Nat) < 3; omega) ⟨2, ![M, 128]⟩ d rfl rfl 128 rfl (ix2 r k)
    (fun b hb => ?_) ?_
  · match b with
    | ⟨0, _⟩ => rfl
    | ⟨1, _⟩ => exact absurd rfl hb
  · show 128 + k.val = q.val; omega

/-- A column among the last 7 is the third matrix's. -/
theorem side_third (s d : Mat M 128) (e : Mat M 7) (h) (r : Fin M) (q : Fin 263) (k : Fin 7) (hq : q.val = 256 + k.val) :
    sideBySide s d e h (ix2 r q) = e (ix2 r k) := by
  refine concatenate_apply_piece (1 : Fin 2) _ h (ix2 r q) 2 (by show (2 : Nat) < 3; omega) ⟨2, ![M, 7]⟩ e rfl rfl 256 rfl (ix2 r k)
    (fun b hb => ?_) ?_
  · match b with
    | ⟨0, _⟩ => rfl
    | ⟨1, _⟩ => exact absurd rfl hb
  · show 256 + k.val = q.val; omega

/-- The product with the side-by-side matrix is the sum of the three products with the bands of rows of `W`. -/
theorem prod_sideBySide (s d : Mat M 128) (e : Mat M 7) (h) (W : Mat 263 H) :
    prod (sideBySide s d e h) W
      = plus (plus (prod s (band 0 (by omega) W)) (prod d (band 128 (by omega) W))) (prod e (band 256 (by omega) W)) := by
  funext j
  have split : ∀ f : Fin (128 + 128 + 7) → EReal,
      ∑ q : Fin (128 + 128 + 7), f q
        = (∑ k : Fin 128, f (Fin.castAdd 7 (Fin.castAdd 128 k)) + ∑ k : Fin 128, f (Fin.castAdd 7 (Fin.natAdd 128 k)))
          + ∑ k : Fin 7, f (Fin.natAdd (128 + 128) k) := fun f => by
    rw [Fin.sum_univ_add, Fin.sum_univ_add]
  refine (split fun q => sideBySide s d e h (ix2 (j 0) q) * W (ix2 q (j 1))).trans ?_
  refine congrArg₂ (· + ·) (congrArg₂ (· + ·) ?_ ?_) ?_
  · refine Finset.sum_congr rfl fun k _ => congrArg₂ (· * ·) (side_first s d e h (j 0) _ k rfl) (congrArg W ?_)
    exact congrArg (fun a : Fin 263 => ix2 a (j 1)) (Fin.ext (by show k.val = 0 + k.val; omega))
  · refine Finset.sum_congr rfl fun k _ => congrArg₂ (· * ·) (side_second s d e h (j 0) _ k rfl) (congrArg W ?_)
    exact congrArg (fun a : Fin 263 => ix2 a (j 1)) (Fin.ext rfl)
  · refine Finset.sum_congr rfl fun k _ => congrArg₂ (· * ·) (side_third s d e h (j 0) _ k rfl) (congrArg W ?_)
    exact congrArg (fun a : Fin 263 => ix2 a (j 1)) (Fin.ext rfl)

end Cert.Layers

end
-- ==== Proof.Joins.lean ====
/-
  The kernel's layers in the reference's spelling.

  Three identities, each between a layer as the kernel computes it and the same layer as the reference spells it, on the
  extended reals and for any sizes.

  The message sum: the kernel adds to the gathered features the whole projection (product plus bias), the reference adds
  the product first and the bias after; the two groupings agree because addition of extended reals is associative.

  The node update: two rectified layers of 1·x + aggregate, the products spelt as host contractions, the biases as
  vectors broadcast to a row and then down the rows, the thresholds and the factor 1 as broadcast scalar constants.

  The edge network: the kernel multiplies the source features, the destination features and the edge attributes by three
  bands of rows of the first weight matrix and sums the three products; the reference sets the three matrices side by
  side and multiplies once. The product of a side-by-side matrix is the sum of the products with the bands.
-/
import proofs.«115617_j23519240913054_2_alg».proof.Proof.Stored
import proofs.«115617_j23519240913054_2_alg».proof.Proof.SideBySide
import Idealize.ShloMosaic.Lib.ValueLayout

noncomputable section

namespace Cert.Layers

open Idealize.ShloMosaic Idealize.ShloMosaic.ValueIdx Cert.KernelIdeal

/-- A slice of `R` whole rows starting at row `o` is that band of rows. -/
theorem slice_band {n0 n1 R : Nat} (o : Nat) (X : Mat n0 n1)
    (h : (⟨2, ![n0, n1]⟩ : Shape).Slices ![o, 0] ⟨2, ![R, n1]⟩) (hb : o + R ≤ n0) :
    extractStridedSlice ⟨2, ![R, n1]⟩ ![o, 0] X h = band o hb X := by
  funext j
  refine (congrArg _ (eq_ix2 j)).trans ?_
  exact slice2_axis0_eq o X h (j 0) (j 1)

/-- The message sum, grouped either way. -/
theorem msg_join {E C D : Nat} (g : FVec Ideal ⟨2, ![E, D]⟩ .f32) (ea : Mat E C) (w : Mat C D)
    (b : (⟨1, ![D]⟩ : Shape).Idx → EReal)
    (Dd : DotDims ⟨2, ![E, C]⟩ ⟨2, ![C, D]⟩ ⟨2, ![E, D]⟩) (hD : Dd = DotDims.plain E C D)
    (h1 : (⟨1, ![D]⟩ : Shape).ShapeCasts ⟨2, ![1, D]⟩) (h2 : (⟨1, ![D]⟩ : Shape).BroadcastsInDim ⟨2, ![1, D]⟩ ![1])
    (h3 : (⟨2, ![1, D]⟩ : Shape).BroadcastsInDim ⟨2, ![E, D]⟩ ![0, 1]) :
    addf g (affine ea w (shapeCast ⟨2, ![1, D]⟩ b h1))
      = addf (addf g (Host.dotGeneral (φ₁ := .f32) (φ₂ := .f32) Dd none ea w))
          (broadcastInDim ⟨2, ![E, D]⟩ ![0, 1] h3 (broadcastInDim ⟨2, ![1, D]⟩ ![1] h2 b)) := by
  rw [hostDot Dd hD, broadcastInDim_asRow, broadcastInDim_row, shapeCast_asRow]
  funext i
  exact (add_assoc (g i) _ _).symm

/-- The node update in the reference's spelling. -/
theorem node_join {M D H O : Nat} (x a : FVec Ideal ⟨2, ![M, D]⟩ .f32) (w1 : FVec Ideal ⟨2, ![D, H]⟩ .f32)
    (b1 : (⟨1, ![H]⟩ : Shape).Idx → EReal) (w2 : FVec Ideal ⟨2, ![H, O]⟩ .f32) (b2 : (⟨1, ![O]⟩ : Shape).Idx → EReal)
    (D1 : DotDims ⟨2, ![M, D]⟩ ⟨2, ![D, H]⟩ ⟨2, ![M, H]⟩) (hD1 : D1 = DotDims.plain M D H)
    (D2 : DotDims ⟨2, ![M, H]⟩ ⟨2, ![H, O]⟩ ⟨2, ![M, O]⟩) (hD2 : D2 = DotDims.plain M H O)
    (c1 : (⟨1, ![H]⟩ : Shape).ShapeCasts ⟨2, ![1, H]⟩) (c2 : (⟨1, ![O]⟩ : Shape).ShapeCasts ⟨2, ![1, O]⟩)
    (r1 : (⟨1, ![H]⟩ : Shape).BroadcastsInDim ⟨2, ![1, H]⟩ ![1]) (r1' : (⟨2, ![1, H]⟩ : Shape).BroadcastsInDim ⟨2, ![M, H]⟩ ![0, 1])
    (r2 : (⟨1, ![O]⟩ : Shape).BroadcastsInDim ⟨2, ![1, O]⟩ ![1]) (r2' : (⟨2, ![1, O]⟩ : Shape).BroadcastsInDim ⟨2, ![M, O]⟩ ![0, 1])
    (zD : (⟨0, ![]⟩ : Shape).BroadcastsInDim ⟨2, ![M, D]⟩ ![]) (zH : (⟨0, ![]⟩ : Shape).BroadcastsInDim ⟨2, ![M, H]⟩ ![])
    (zO : (⟨0, ![]⟩ : Shape).BroadcastsInDim ⟨2, ![M, O]⟩ ![]) :
    Stored.nodeLayers x a w1 (shapeCast ⟨2, ![1, H]⟩ b1 c1) w2 (shapeCast ⟨2, ![1, O]⟩ b2 c2)
      = maximumf (addf (Host.dotGeneral (φ₁ := .f32) (φ₂ := .f32) D2 none
          (maximumf (addf (Host.dotGeneral (φ₁ := .f32) (φ₂ := .f32) D1 none
              (addf (mulf (broadcastInDim ⟨2, ![M, D]⟩ ![] zD (constant (F := Ideal) ⟨0, ![]⟩ .f32 0x3F800000#32)) x) a) w1)
            (broadcastInDim ⟨2, ![M, H]⟩ ![0, 1] r1' (broadcastInDim ⟨2, ![1, H]⟩ ![1] r1 b1)))
            (broadcastInDim ⟨2, ![M, H]⟩ ![] zH (constant (F := Ideal) ⟨0, ![]⟩ .f32 0x00000000#32))) w2)
          (broadcastInDim ⟨2, ![M, O]⟩ ![0, 1] r2' (broadcastInDim ⟨2, ![1, O]⟩ ![1] r2 b2)))
          (broadcastInDim ⟨2, ![M, O]⟩ ![] zO (constant (F := Ideal) ⟨0, ![]⟩ .f32 0x00000000#32)) := by
  rw [hostDot D1 hD1, hostDot D2 hD2, max_const, max_const, mul_const, broadcastInDim_asRow b1 r1, broadcastInDim_asRow b2 r2,
    broadcastInDim_row, broadcastInDim_row, shapeCast_asRow, shapeCast_asRow]
  rfl

/-- The edge network in the reference's spelling. -/
theorem edge_join {M H O : Nat} (s d : FVec Ideal ⟨2, ![M, 128]⟩ .f32) (e : FVec Ideal ⟨2, ![M, 7]⟩ .f32)
    (W : FVec Ideal ⟨2, ![263, H]⟩ .f32) (b1 : (⟨1, ![H]⟩ : Shape).Idx → EReal) (w2 : FVec Ideal ⟨2, ![H, O]⟩ .f32)
    (b2 : (⟨1, ![O]⟩ : Shape).Idx → EReal)
    (s0 : (⟨2, ![263, H]⟩ : Shape).Slices ![0, 0] ⟨2, ![128, H]⟩) (s1 : (⟨2, ![263, H]⟩ : Shape).Slices ![128, 0] ⟨2, ![128, H]⟩)
    (s2 : (⟨2, ![263, H]⟩ : Shape).Slices ![256, 0] ⟨2, ![7, H]⟩)
    (hc : Shape.Concatenates ([(⟨⟨2, ![M, 128]⟩, s⟩ : (s : Shape) × (s.Idx → EReal)), ⟨⟨2, ![M, 128]⟩, d⟩, ⟨⟨2, ![M, 7]⟩, e⟩].map (·.1))
      ⟨2, ![M, 263]⟩ (1 : Fin 2))
    (D1 : DotDims ⟨2, ![M, 263]⟩ ⟨2, ![263, H]⟩ ⟨2, ![M, H]⟩) (hD1 : D1 = DotDims.plain M 263 H)
    (D2 : DotDims ⟨2, ![M, H]⟩ ⟨2, ![H, O]⟩ ⟨2, ![M, O]⟩) (hD2 : D2 = DotDims.plain M H O)
    (c1 : (⟨1, ![H]⟩ : Shape).ShapeCasts ⟨2, ![1, H]⟩) (c2 : (⟨1, ![O]⟩ : Shape).ShapeCasts ⟨2, ![1, O]⟩)
    (r1 : (⟨1, ![H]⟩ : Shape).BroadcastsInDim ⟨2, ![1, H]⟩ ![1]) (r1' : (⟨2, ![1, H]⟩ : Shape).BroadcastsInDim ⟨2, ![M, H]⟩ ![0, 1])
    (r2 : (⟨1, ![O]⟩ : Shape).BroadcastsInDim ⟨2, ![1, O]⟩ ![1]) (r2' : (⟨2, ![1, O]⟩ : Shape).BroadcastsInDim ⟨2, ![M, O]⟩ ![0, 1])
    (zH : (⟨0, ![]⟩ : Shape).BroadcastsInDim ⟨2, ![M, H]⟩ ![]) :
    Stored.edgeLayers s d e (extractStridedSlice ⟨2, ![128, H]⟩ ![0, 0] W s0) (extractStridedSlice ⟨2, ![128, H]⟩ ![128, 0] W s1)
        (extractStridedSlice ⟨2, ![7, H]⟩ ![256, 0] W s2) (shapeCast ⟨2, ![1, H]⟩ b1 c1) w2 (shapeCast ⟨2, ![1, O]⟩ b2 c2)
      = addf (Host.dotGeneral (φ₁ := .f32) (φ₂ := .f32) D2 none
          (maximumf (addf (Host.dotGeneral (φ₁ := .f32) (φ₂ := .f32) D1 none
              (concatenate ⟨2, ![M, 263]⟩ (1 : Fin 2) [⟨⟨2, ![M, 128]⟩, s⟩, ⟨⟨2, ![M, 128]⟩, d⟩, ⟨⟨2, ![M, 7]⟩, e⟩] hc) W)
            (broadcastInDim ⟨2, ![M, H]⟩ ![0, 1] r1' (broadcastInDim ⟨2, ![1, H]⟩ ![1] r1 b1)))
            (broadcastInDim ⟨2, ![M, H]⟩ ![] zH (constant (F := Ideal) ⟨0, ![]⟩ .f32 0x00000000#32))) w2)
          (broadcastInDim ⟨2, ![M, O]⟩ ![0, 1] r2' (broadcastInDim ⟨2, ![1, O]⟩ ![1] r2 b2)) := by
  rw [hostDot D1 hD1, hostDot D2 hD2, max_const, broadcastInDim_asRow b1 r1, broadcastInDim_asRow b2 r2,
    broadcastInDim_row, broadcastInDim_row, shapeCast_asRow, shapeCast_asRow,
    slice_band 0 W s0 (by omega), slice_band 128 W s1 (by omega), slice_band 256 W s2 (by omega)]
  exact congrArg (fun t => affine (clip Stored.zeroW (plus t (rowRep (asRow b1)))) w2 (asRow b2))
    (prod_sideBySide s d e hc W).symm

end Cert.Layers

end
-- ==== Proof.SameValue.lean ====
/-
  The two programs compute the same values, stage by stage.

  Both programs run the same network: an edge projection and a gather-add-rectify-scatter round of messages, a node
  update of two rectified layers, the same again on the hidden features, and a two-layer network on each edge's source
  features, destination features and attributes. The kernel computes the projections, the node updates and the edge
  network in kernel regions and the gathers and scatters on the host; the reference does everything on the host. At each
  stage the buffer the kernel's chain of valuations leaves is the reference's value of the same stage at the same
  launch arguments: the gathers and scatters are the same host operations on both sides, the layers are equal by the
  three joins (the message sum regrouped, the node update respelt, the side-by-side product split), and a change of
  float format is the identity on the extended reals.
-/
import proofs.«115617_j23519240913054_2_alg».proof.Proof.Links
import proofs.«115617_j23519240913054_2_alg».proof.Proof.LibTypedMoves
import proofs.«115617_j23519240913054_2_alg».proof.Proof.Joins
import proofs.«115617_j23519240913054_2_alg».proof.Proof.Gen.ReferenceIdeal.Read

set_option maxRecDepth 16384

noncomputable section

namespace Cert.SameValue

open Idealize.ShloMosaic Idealize.ShloMosaic.TcCoe Idealize.ShloMosaic.ValueIdx Idealize.SL.Sem Idealize.ShloMosaic.StableHlo
open Cert.KernelIdeal Cert.KernelIdeal.Gen Cert.Layers Cert.ReferenceIdeal.Read

open Idealize.ShloMosaic.TypedMoves

variable (m : (ℓ : Loc nD τ sig) → Buf (Elt Ideal) ℓ) (ρ : Dev nD → PrngReg)

/-- The first round's aggregated messages. -/
theorem aggr_first (c : Dev nD) :
    W5 m ρ c (Proc.devRef .tc main_v18) = val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TypedMoves.ofBuf_self, TypedMoves.toBuf_self, Links.past0, Links.attrs_past0, Links.proj_first]
  strip_moves
  simp only [val_main_v0, val_main_v1, val_main_v2, val_main_v3, val_main_c, val_main_v4, val_main_v5, val_main_c_0, val_main_v6, val_main_v7, val_main_v8, val_main_v9, val_main_v10, val_main_v11, val_main_v12, val_main_v13, val_main_v14, val_main_v15, val_main_call0_cst, val_main_call0_v0, val_main_v16, val_main_cst, val_main_v17, val_main_v18, val_main_v19]
  rw [← msg_join _ _ _ _ _ (by rfl) shapeCasts_S387_S1x387 _ _]
  rfl

/-- The hidden features after the first node update. -/
theorem hidden_first (c : Dev nD) :
    W6 m ρ c (Proc.devRef .tc main_v21) = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [Links.update_first, aggr_first]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TypedMoves.ofBuf_self, TypedMoves.toBuf_self, Links.past0]
  simp only [val_main_cst_1, val_main_v20, val_main_v21, val_main_v22, val_main_v23, val_main_v24, val_main_v25, val_main_v26, val_main_call1_cst, val_main_call1_v0, val_main_v27, val_main_v28, val_main_v29, val_main_v30, val_main_v31, val_main_call2_cst, val_main_call2_v0, val_main_v32]
  rw [← node_join _ _ _ _ _ _ _ (by rfl) _ (by rfl) shapeCasts_S128_S1x128 shapeCasts_S128_S1x128 _ _ _ _ _ _ _]
  rfl

/-- The second round's aggregated messages. -/
theorem aggr_second (c : Dev nD) :
    W11 m ρ c (Proc.devRef .tc main_v35) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TypedMoves.ofBuf_self, TypedMoves.toBuf_self, Links.past0, Links.past1, Links.past2, Links.attrs_past0, Links.attrs_past2,
      Links.proj_second]
  rw [hidden_first]
  strip_moves
  simp only [val_main_c_2, val_main_v33, val_main_v34, val_main_c_3, val_main_v35, val_main_v36, val_main_v37, val_main_v38, val_main_v39, val_main_v40, val_main_v41, val_main_v42, val_main_v43, val_main_v44, val_main_call3_cst, val_main_call3_v0, val_main_v45, val_main_cst_4, val_main_v46, val_main_v47, val_main_v48]
  rw [← msg_join _ _ _ _ _ (by rfl) shapeCasts_S128_S1x128 _ _]
  rfl

/-- The hidden features after the second node update. -/
theorem hidden_second (c : Dev nD) :
    W12 m ρ c (Proc.devRef .tc main_v38) = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [Links.update_second, aggr_second]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TypedMoves.ofBuf_self, TypedMoves.toBuf_self, Links.past0, Links.past1, Links.past2]
  rw [hidden_first]
  simp only [val_main_cst_5, val_main_v49, val_main_v50, val_main_v51, val_main_v52, val_main_v53, val_main_v54, val_main_v55, val_main_call4_cst, val_main_call4_v0, val_main_v56, val_main_v57, val_main_v58, val_main_v59, val_main_v60, val_main_call5_cst, val_main_call5_v0, val_main_v61]
  rw [← node_join _ _ _ _ _ _ _ (by rfl) _ (by rfl) shapeCasts_S128_S1x128 shapeCasts_S128_S1x128 _ _ _ _ _ _ _]
  rfl

set_option maxHeartbeats 2000000 in
/-- The result: the edge network's output. -/
theorem result (c : Dev nD) :
    W14 m ρ c (Proc.devRef .tc main_v59) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  rw [Links.edge_net]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TypedMoves.ofBuf_self, TypedMoves.toBuf_self, Links.past0, Links.past1, Links.past2, Links.past3, Links.attrs_past0,
      Links.attrs_past2]
  rw [hidden_second]
  simp only [val_main_c_6, val_main_v62, val_main_v63, val_main_c_7, val_main_v64, val_main_v65, val_main_v66, val_main_v67, val_main_v68, val_main_c_8, val_main_v69, val_main_v70, val_main_c_9, val_main_v71, val_main_v72, val_main_v73, val_main_v74, val_main_v75, val_main_v76, val_main_v77, val_main_v78, val_main_v79, val_main_v80, val_main_call6_cst, val_main_call6_v0, val_main_v81, val_main_v82, val_main_v83, val_main_v84, val_main_v85]
  rw [← edge_join _ _ _ _ _ _ _ slices_S263x128_S128x128_0_0 slices_S263x128_S128x128_128_0 slices_S263x128_S7x128_256_0
    _ _ (by rfl) _ (by rfl) shapeCasts_S128_S1x128 shapeCasts_S2_S1x2 _ _ _ _ _]
  rfl

end Cert.SameValue

end
-- ==== Proof.lean ====
/-
  The certificate of the graph network's edge model: the kernel's program against the reference's.

  The word-level kernel and its idealized reading each run to the end without a fault and leave their argument arrays
  as launched (the generated frames of the five regions among the host operations); the reference does too (its
  generated run). The idealization rewrote no operation, so there is nothing to preserve beyond the program's own text.
  On the extended reals the two idealized programs end with the same result: the kernel's run leaves its result buffer
  at the last valuation of its chain, the reference's run leaves its result at the composed value of its operations,
  and stage by stage the two are the same function of the launch arguments (`SameValue`): the same gathers and scatters
  on the host, the message sum regrouped by associativity, and the three-way product of the edge network equal to the one
  product of the side-by-side matrix. No law used needs the inputs to be finite.
-/
import proofs.«115617_j23519240913054_2_alg».proof.Defs
import proofs.«115617_j23519240913054_2_alg».proof.Proof.Gen.Kernel
import proofs.«115617_j23519240913054_2_alg».proof.Proof.Gen.Kernel.Skeleton
import proofs.«115617_j23519240913054_2_alg».proof.Proof.Gen.Kernel.Launch
import proofs.«115617_j23519240913054_2_alg».proof.Proof.Gen.Kernel.Points
import proofs.«115617_j23519240913054_2_alg».proof.Proof.Gen.Kernel.Frame
import proofs.«115617_j23519240913054_2_alg».proof.Proof.Gen.KernelIdeal
import proofs.«115617_j23519240913054_2_alg».proof.Proof.Gen.KernelIdeal.Skeleton
import proofs.«115617_j23519240913054_2_alg».proof.Proof.Gen.KernelIdeal.Launch
import proofs.«115617_j23519240913054_2_alg».proof.Proof.Gen.KernelIdeal.Points
import proofs.«115617_j23519240913054_2_alg».proof.Proof.Gen.KernelIdeal.Frame
import proofs.«115617_j23519240913054_2_alg».proof.Proof.Gen.ReferenceIdeal
import proofs.«115617_j23519240913054_2_alg».proof.Proof.Gen.Pre_finite_inputs
import proofs.«115617_j23519240913054_2_alg».proof.Proof.Gen.ReferenceIdeal.Run
import proofs.«115617_j23519240913054_2_alg».proof.Proof.Gen.ReferenceIdeal.Read
import proofs.«115617_j23519240913054_2_alg».proof.Proof.KernelRun
import proofs.«115617_j23519240913054_2_alg».proof.Proof.SameValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both idealized programs end with the same result: the kernel's last
    valuation at its result buffer, which is the reference's composed value at the same arguments. -/
theorem algebraic : Cert.algebraic_KernelIdeal_ReferenceIdeal := by
  intro m ρ m' ρ' _ hagree
  refine ⟨fun c => Cert.KernelIdeal.Gen.W14 m ρ c (Proc.devRef .tc Cert.KernelIdeal.main_v59),
    Cert.KernelIdeal.EndState.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v85_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]
  exact (Cert.SameValue.result m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
